-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S1600000x5 : Shape := ⟨2, ![1600000, 5]⟩
abbrev S1600000 : Shape := ⟨1, ![1600000]⟩
abbrev S4x64 : Shape := ⟨2, ![4, 64]⟩
abbrev S64 : Shape := ⟨1, ![64]⟩
abbrev S64x64 : Shape := ⟨2, ![64, 64]⟩
abbrev S133x64 : Shape := ⟨2, ![133, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000x5 : S_.BroadcastsInDim S1600000x5 (![] : Fin 0 → Fin S1600000x5.rank)
  reducesTo_S1600000x5_S_d0_1 : S1600000x5.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S133x64 : S_.BroadcastsInDim S133x64 (![] : Fin 0 → Fin S133x64.rank)
  reducesTo_S133x64_S_d0_1 : S133x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S133x64 .f32) (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S133x64 .f32 := Host.absf main_arg16
  let main_cst_26 : FVec F S_ .f32 := constant S_ .f32 0x7F800000#32
  let main_v70 : FVec F S133x64 .f32 := broadcastInDim S133x64 ![] bcast_S_S133x64 main_cst_26
  let main_v71 : IVec S133x64 1 := cmpf .olt main_v69 main_v70
  let main_c_27 : IVec S_ 1 := constantI S_ 1 1#1
  let main_v72 : IVec S_ 1 := (fun x v => Host.reduce IntOp.andi x v reducesTo_S133x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg18
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) (main_v48 : IVec S_ 1) (main_v49 : FVec F S133x64 .f32) (main_v50 : FVec F S133x64 .f32) : IVec S_ 1 :=
  let main_v51 : IVec S133x64 1 := cmpf .olt main_v49 main_v50
  let main_c_19 : IVec S_ 1 := constantI S_ 1 1#1
  let main_v52 : IVec S_ 1 := (fun x v => Host.reduce IntOp.andi x v reducesTo_S133x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S64x64 .f32) (main_arg11 : FVec F S64 .f32) (main_arg12 : FVec F S133x64 .f32) (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S133x64 .f32 := Host.absf main_arg12
  let main_cst_18 : FVec F S_ .f32 := constant S_ .f32 0x7F800000#32
  let main_v50 : FVec F S133x64 .f32 := broadcastInDim S133x64 ![] bcast_S_S133x64 main_cst_18
  fn_part3 (F := F) main_arg13 main_arg14 main_arg15 main_arg16 main_arg17 main_arg18 main_arg19 main_v48 main_v49 main_v50

def fn_part1 {F : FTy → Type} [FloatOps F] (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S133x64 .f32) (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x4 .f32) (main_arg1 : FVec F S1600000x5 .f32) (main_arg2 : IVec S1600000 32) (main_arg3 : IVec S1600000 32) (main_arg4 : FVec F S4x64 .f32) (main_arg5 : FVec F S4x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S133x64 .f32) (main_arg13 : FVec F S64 .f32) (main_arg14 : FVec F S64x1 .f32) (main_arg15 : FVec F S1 .f32) (main_arg16 : FVec F S133x64 .f32) (main_arg17 : FVec F S64 .f32) (main_arg18 : FVec F S64x1 .f32) (main_arg19 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000x5 .f32 := Host.absf main_arg1
  let main_cst_0 : FVec F S_ .f32 := constant S_ .f32 0x7F800000#32
  let main_v5 : FVec F S1600000x5 .f32 := broadcastInDim S1600000x5 ![] bcast_S_S1600000x5 main_cst_0
  let main_v6 : IVec S1600000x5 1 := cmpf .olt main_v4 main_v5
  let main_c_1 : IVec S_ 1 := constantI S_ 1 1#1
  let main_v7 : IVec S_ 1 := (fun x v => Host.reduce IntOp.andi x v reducesTo_S1600000x5_S_d0_1 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x4 : Shape := ⟨2, ![100000, 4]⟩
abbrev S1600000x5 : Shape := ⟨2, ![1600000, 5]⟩
abbrev S1600000 : Shape := ⟨1, ![1600000]⟩
abbrev S4x64 : Shape := ⟨2, ![4, 64]⟩
abbrev S64 : Shape := ⟨1, ![64]⟩
abbrev S64x64 : Shape := ⟨2, ![64, 64]⟩
abbrev S133x64 : Shape := ⟨2, ![133, 64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S4000x64 : Shape := ⟨2, ![4000, 64]⟩
abbrev S4000x5 : Shape := ⟨2, ![4000, 5]⟩
abbrev S4000x1 : Shape := ⟨2, ![4000, 1]⟩
abbrev S4000x133 : Shape := ⟨2, ![4000, 133]⟩
abbrev S4000 : Shape := ⟨1, ![4000]⟩
abbrev S1x1 : Shape := ⟨2, ![1, 1]⟩

abbrev nBuf : Space → Nat
  | .hbm => 112
  | .vmem => 16
  | .smem => 0
  | _ => 0

abbrev bufTy : (tb : Table) → Fin (tcTables nBuf tb) → BufTy
  | .hbm, ⟨0, _⟩ => ⟨S100000x4, .f32⟩
  | .hbm, ⟨1, _⟩ => ⟨S1600000x5, .f32⟩
  | .hbm, ⟨2, _⟩ => ⟨S1600000, .i32⟩
  | .hbm, ⟨3, _⟩ => ⟨S1600000, .i32⟩
  | .hbm, ⟨4, _⟩ => ⟨S4x64, .f32⟩
  | .hbm, ⟨5, _⟩ => ⟨S4x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S133x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S133x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .bf16⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .bf16⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x64, .bf16⟩
  | .hbm, ⟨107, _⟩ => ⟨S133x64, .bf16⟩
  | .hbm, ⟨108, _⟩ => ⟨S133x64, .bf16⟩
  | .hbm, ⟨109, _⟩ => ⟨S64, .f32⟩
  | .hbm, ⟨110, _⟩ => ⟨S64, .f32⟩
  | .hbm, ⟨111, _⟩ => ⟨S1600000x1, .f32⟩
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S4000x5, .f32⟩
  | .local _ .vmem, ⟨5, _⟩ => ⟨S4000x5, .f32⟩
  | .local _ .vmem, ⟨6, _⟩ => ⟨S133x64, .bf16⟩
  | .local _ .vmem, ⟨7, _⟩ => ⟨S64, .f32⟩
  | .local _ .vmem, ⟨8, _⟩ => ⟨S64, .f32⟩
  | .local _ .vmem, ⟨9, _⟩ => ⟨S1, .f32⟩
  | .local _ .vmem, ⟨10, _⟩ => ⟨S133x64, .bf16⟩
  | .local _ .vmem, ⟨11, _⟩ => ⟨S64, .f32⟩
  | .local _ .vmem, ⟨12, _⟩ => ⟨S64, .f32⟩
  | .local _ .vmem, ⟨13, _⟩ => ⟨S1, .f32⟩
  | .local _ .vmem, ⟨14, _⟩ => ⟨S4000x1, .f32⟩
  | .local _ .vmem, ⟨15, _⟩ => ⟨S4000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call0_cst : Ref sig .tc := ⟨.hbm, 54, rfl⟩
abbrev main_call0_v0 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_cst : Ref sig .tc := ⟨.hbm, 78, rfl⟩
abbrev main_call1_v0 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call2_cst : Ref sig .tc := ⟨.hbm, 85, rfl⟩
abbrev main_call2_v0 : Ref sig .tc := ⟨.hbm, 86, rfl⟩
abbrev main_v51 : Ref sig .tc := ⟨.hbm, 87, rfl⟩
abbrev main_v52 : Ref sig .tc := ⟨.hbm, 88, rfl⟩
abbrev main_c_8 : Ref sig .tc := ⟨.hbm, 89, rfl⟩
abbrev main_v53 : Ref sig .tc := ⟨.hbm, 90, rfl⟩
abbrev main_v54 : Ref sig .tc := ⟨.hbm, 91, rfl⟩
abbrev main_c_9 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_10 : Ref sig .tc := ⟨.hbm, 98, rfl⟩
abbrev main_v60 : Ref sig .tc := ⟨.hbm, 99, rfl⟩
abbrev main_v61 : Ref sig .tc := ⟨.hbm, 100, rfl⟩
abbrev main_c_11 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S133x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S133x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bitsLt_bf16_f32 : FTy.bits .bf16 < FTy.bits .f32
  shapeCasts_S64x1_S64 : S64x1.ShapeCasts S64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x5_S4000x5_0_0 : ∀ a, (![0, 0] : Fin 2 → Nat) a + S4000x5.size a ≤ S4000x5.size a
  h_S4000x5 : 0 < S4000x5.numel
  concatenates_S4000x64_S4000x64_S4000x5_S4000x133_d1 : Shape.Concatenates [S4000x64, S4000x64, S4000x5] S4000x133 1
  inb_S133x64_S133x64_0_0 : ∀ a, (![0, 0] : Fin 2 → Nat) a + S133x64.size a ≤ S133x64.size a
  h_S133x64 : 0 < S133x64.numel
  shapeCasts_S133x64_S133x64 : S133x64.ShapeCasts S133x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  shapeCasts_S64_S64 : S64.ShapeCasts S64
  inb_S1_S1_0 : ∀ a, (![0] : Fin 1 → Nat) a + S1.size a ≤ S1.size a
  h_S1 : 0 < S1.numel
  reduces_S4000x64_S4000 : S4000x64.Reduces [1] S4000
  shapeCasts_S4000_S4000x1 : S4000.ShapeCasts S4000x1
  shapeCasts_S1_S1x1 : S1.ShapeCasts S1x1
  broadcasts_S1x1_S4000x1 : S1x1.Broadcasts S4000x1
  broadcasts_S4000x1_S4000x133 : S4000x1.Broadcasts S4000x133
  inb_S4000x1_S4000x1_0_0 : ∀ a, (![0, 0] : Fin 2 → Nat) a + S4000x1.size a ≤ S4000x1.size a
  h_S4000x1 : 0 < S4000x1.numel
  scatter_S100000_S1600000x1_S1600000_n_0_0_1_wf : ScatterDims.WF S100000 S1600000x1 S1600000 [] [0] [0] 1
  dot_S100000x4_S4x64_S100000x64_1_0_0_1_n_n_wf : DotDims.WF S100000x4 S4x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S4000x133_S133x64_S4000x64_1_0_0_1_n_n_wf : DotDims.WF S4000x133 S133x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .bf16 = 32 ∨ (Rect.block (s := S1600000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .bf16 = 32 ∨ (Rect.block (s := S1600000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x5.size a ≤ S1600000x5.size a
  hwx0_2 : ∀ i : grid0.Coords, EltTy.bits .f32 = 32 ∨ (Rect.block (s := S1600000x5) S4000x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S133x64.size a ≤ S133x64.size a
  hwx0_3 : ∀ i : grid0.Coords, EltTy.bits .bf16 = 32 ∨ (Rect.block (s := S133x64) S133x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S133x64.size a ≤ S133x64.size a
  hwx0_7 : ∀ i : grid0.Coords, EltTy.bits .bf16 = 32 ∨ (Rect.block (s := S133x64) S133x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x1.size a ≤ S1600000x1.size a
  hwx0_11 : ∀ i : grid0.Coords, EltTy.bits .f32 = 32 ∨ (Rect.block (s := S1600000x1) S4000x1.size (cc0_transform_11 i) (hinb0_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S4000x133_S133x64_S4000x64_1_0_0_1_n_n : DotDims S4000x133 S133x64 S4000x64 where
  lhsContracting := [1]
  rhsContracting := [0]
  lhsNonContracting := [0]
  rhsNonContracting := [1]
  lhsBatch := []
  rhsBatch := []
  wf := dot_S4000x133_S133x64_S4000x64_1_0_0_1_n_n_wf

abbrev win0_0 : Pipeline.Window sig grid0 :=
  Pipeline.Window.ofSpec (Memref.whole main_v59) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S133x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v69) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg15) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v68) S133x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v70) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg19) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v71) S4000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x4 : Shape := ⟨2, ![100000, 4]⟩
abbrev S1600000x5 : Shape := ⟨2, ![1600000, 5]⟩
abbrev S1600000 : Shape := ⟨1, ![1600000]⟩
abbrev S4x64 : Shape := ⟨2, ![4, 64]⟩
abbrev S64 : Shape := ⟨1, ![64]⟩
abbrev S64x64 : Shape := ⟨2, ![64, 64]⟩
abbrev S133x64 : Shape := ⟨2, ![133, 64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S1600000x133 : Shape := ⟨2, ![1600000, 133]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S100000x4, .f32⟩
  | 1 => ⟨S1600000x5, .f32⟩
  | 2 => ⟨S1600000, .i32⟩
  | 3 => ⟨S1600000, .i32⟩
  | 4 => ⟨S4x64, .f32⟩
  | 5 => ⟨S4x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64, .f32⟩
  | 12 => ⟨S133x64, .f32⟩
  | 13 => ⟨S64, .f32⟩
  | 14 => ⟨S64x1, .f32⟩
  | 15 => ⟨S1, .f32⟩
  | 16 => ⟨S133x64, .f32⟩
  | 17 => ⟨S64, .f32⟩
  | 18 => ⟨S64x1, .f32⟩
  | 19 => ⟨S1, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x64, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S1600000x64, .f32⟩
  | 91 => ⟨S1x64, .f32⟩
  | 92 => ⟨S1600000x64, .f32⟩
  | 93 => ⟨S1600000x64, .f32⟩
  | 94 => ⟨S_, .f32⟩
  | 95 => ⟨S1600000x64, .f32⟩
  | 96 => ⟨S1600000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1x64, .f32⟩
  | 108 => ⟨S1600000x64, .f32⟩
  | 109 => ⟨S1600000x64, .f32⟩
  | 110 => ⟨S_, .f32⟩
  | 111 => ⟨S1600000x64, .f32⟩
  | 112 => ⟨S1600000x64, .f32⟩
  | 113 => ⟨S1600000x133, .f32⟩
  | 114 => ⟨S1600000x64, .f32⟩
  | 115 => ⟨S1x64, .f32⟩
  | 116 => ⟨S1600000x64, .f32⟩
  | 117 => ⟨S1600000x64, .f32⟩
  | 118 => ⟨S1600000x64, .f32⟩
  | 119 => ⟨S1600000x1, .f32⟩
  | 120 => ⟨S1x1, .f32⟩
  | 121 => ⟨S1600000x1, .f32⟩
  | 122 => ⟨S1600000x1, .f32⟩
  | 123 => ⟨S1600000x1, .f32⟩
  | 124 => ⟨S1600000x1, .f32⟩
  | 125 => ⟨S_, .f32⟩
  | 126 => ⟨S1600000x1, .f32⟩
  | 127 => ⟨S1600000x1, .f32⟩
  | _ => ⟨S100000x4, .f32⟩

abbrev hbmTy0_1 (i : Nat) : BufTy := match i % 128 with
  | 0 => ⟨S_, .f32⟩
  | 1 => ⟨S1600000x1, .f32⟩
  | 2 => ⟨S1600000x1, .f32⟩
  | 3 => ⟨S1600000x133, .f32⟩
  | 4 => ⟨S1600000x133, .f32⟩
  | 5 => ⟨S1600000x64, .f32⟩
  | 6 => ⟨S1x64, .f32⟩
  | 7 => ⟨S1600000x64, .f32⟩
  | 8 => ⟨S1600000x64, .f32⟩
  | 9 => ⟨S_, .f32⟩
  | 10 => ⟨S1600000x64, .f32⟩
  | 11 => ⟨S1600000x64, .f32⟩
  | 12 => ⟨S1600000x1, .f32⟩
  | 13 => ⟨S1x1, .f32⟩
  | 14 => ⟨S1600000x1, .f32⟩
  | 15 => ⟨S1600000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call0_cst : Ref sig .tc := ⟨.hbm, 54, rfl⟩
abbrev main_call0_v0 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_cst : Ref sig .tc := ⟨.hbm, 78, rfl⟩
abbrev main_call1_v0 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_call2_cst : Ref sig .tc := ⟨.hbm, 94, rfl⟩
abbrev main_call2_v0 : Ref sig .tc := ⟨.hbm, 95, rfl⟩
abbrev main_v58 : Ref sig .tc := ⟨.hbm, 96, rfl⟩
abbrev main_c_10 : Ref sig .tc := ⟨.hbm, 97, rfl⟩
abbrev main_v59 : Ref sig .tc := ⟨.hbm, 98, rfl⟩
abbrev main_v60 : Ref sig .tc := ⟨.hbm, 99, rfl⟩
abbrev main_c_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call3_cst : Ref sig .tc := ⟨.hbm, 110, rfl⟩
abbrev main_call3_v0 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_12 : Ref sig .tc := ⟨.hbm, 125, rfl⟩
abbrev main_v83 : Ref sig .tc := ⟨.hbm, 126, rfl⟩
abbrev main_v84 : Ref sig .tc := ⟨.hbm, 127, rfl⟩
abbrev main_cst_13 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_call4_cst : Ref sig .tc := ⟨.hbm, 137, rfl⟩
abbrev main_call4_v0 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  concatenates_S1600000x64_S1600000x64_S1600000x5_S1600000x133_d1 : Shape.Concatenates [S1600000x64, S1600000x64, S1600000x5] S1600000x133 1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x133_0_1 : S1600000x1.BroadcastsInDim S1600000x133 (![0, 1] : Fin 2 → Fin S1600000x133.rank)
  scatter_S100000_S1600000x1_S1600000_n_0_0_1_wf : ScatterDims.WF S100000 S1600000x1 S1600000 [] [0] [0] 1
  dot_S100000x4_S4x64_S100000x64_1_0_0_1_n_n_wf : DotDims.WF S100000x4 S4x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S1600000x64_S64x64_S1600000x64_1_0_0_1_n_n_wf : DotDims.WF S1600000x64 S64x64 S1600000x64 [1] [0] [0] [1] [] []
  dot_S1600000x133_S133x64_S1600000x64_1_0_0_1_n_n_wf : DotDims.WF S1600000x133 S133x64 S1600000x64 [1] [0] [0] [1] [] []
  dot_S1600000x64_S64x1_S1600000x1_1_0_0_1_n_n_wf : DotDims.WF S1600000x64 S64x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x133_S133x64_S1600000x64_1_0_0_1_n_n : DotDims S1600000x133 S133x64 S1600000x64 where
  lhsContracting := [1]
  rhsContracting := [0]
  lhsNonContracting := [0]
  rhsNonContracting := [1]
  lhsBatch := []
  rhsBatch := []
  wf := dot_S1600000x133_S133x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.KernelPrefix.lean ====
/-
  The host operations in front of the kernel, up to the hidden rows.

  Both programs begin with the same two graph layers: the in-degree of every node by a scatter of ones, its reciprocal
  clipped at one, and twice "project, gather by source, scatter-add by destination, scale by the reciprocal degree, add
  the self projection and the bias, clip below at zero". Operation for operation the kernel's host program and the
  reference coincide up to the hidden rows `h` (`[100000, 64]`), so what the kernel's host program has in that buffer
  is the reference's value of it, as a function of the arguments. Nothing of those layers is opened here or anywhere.
-/
import proofs.«177754_j68066641707575_2_alg».proof.Proof.Gen.KernelIdeal.Frame
import proofs.«177754_j68066641707575_2_alg».proof.Proof.Gen.ReferenceIdeal.Read
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ)

/-- Running two lines one after the other is running their concatenation. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih _

/-- Core `c`'s buffers after the host operations through the second graph layer. -/
def Vp (c : Dev nD) : Valuation τ sig (Elt Ideal) :=
  after hostOps0_3 (after hostOps0_2 (after hostOps0_1 (after hostOps0 (fun b => m (c, b)))))

/-- The region finds the buffers as the remaining host operations (the node projection, the two gathers, the weights'
    casts and reshapes) leave them from there. -/
theorem V_eq (c : Dev nD) (b : Ref sig .tc) :
    V m c b = after hostOps0_6 (after hostOps0_5 (after hostOps0_4 (Vp m c))) (Proc.devRef .tc b) := by
  show after (List.flatten [hostOps0, hostOps0_1, hostOps0_2, hostOps0_3, hostOps0_4, hostOps0_5, hostOps0_6]) (fun b => m (c, b))
    (Proc.devRef .tc b) = _
  unfold Vp
  simp only [List.flatten_cons, List.flatten_nil, List.append_nil, after_append]

set_option maxHeartbeats 4000000 in
/-- The hidden rows the kernel's host program computes are the reference's, as a function of the arguments. -/
theorem hidden_eq (c : Dev nD) :
    Vp m c (Proc.devRef .tc main_v46)
      = Cert.ReferenceIdeal.Read.val_main_v46 (F := Ideal)
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  unfold Vp
  simp only [hostOps0, hostOps0_1, hostOps0_2, hostOps0_3]
  after_results_simp
  rfl

end Cert.KernelIdeal.HostSide

end
-- ==== Proof.EdgeSpec.lean ====
/-
  What one edge's result is, as a function of the edge's 133 features and the weights.

  An edge `e` has 133 features: the projected hidden row of its source node (64), that of its destination node (64),
  and its own 5 edge features. A projected hidden row is `max (h · Wnp + bnp) 0` of the node's hidden row `h`.
  From the features `f`:
    gate  = logistic (Σ_j tanh (Σ_k f_k · We1_kj + be1_j) · we2_j + be2)
    out   = Σ_j max (Σ_k (f_k · gate) · Wl1_kj + bl1_j) 0 · wl2_j + bl2.
  Everything is on the extended reals; no law beyond the shape of these sums is used anywhere, so no operand needs to
  be finite.
-/
import Idealize.ShloMosaic.PureOps.Ideal
import Idealize.ShloMosaic.Lib.ValueIdx
import Idealize.ShloMosaic.Lib.IdealHost

noncomputable section

namespace Cert.EdgeSpec

open Idealize.ShloMosaic

/-- Zero as both programs spell it: the all-zero f32 word. -/
abbrev zero : EReal := Ideal.ofBits .f32 0x00000000#32

/-- One column of an affine layer on a feature row: `Σ_k f_k · W_kj + b_j`. -/
def affine {K : Nat} (W : Fin K → Fin 64 → EReal) (b : Fin 64 → EReal) (f : Fin K → EReal) (j : Fin 64) : EReal :=
  (∑ k : Fin K, f k * W k j) + b j

/-- The edge's gate: the logistic of the first head's logit. -/
def gate (We1 : Fin 133 → Fin 64 → EReal) (be1 we2 : Fin 64 → EReal) (be2 : EReal) (f : Fin 133 → EReal) : EReal :=
  Ideal.logistic ((∑ j : Fin 64, Ideal.tanh (affine We1 be1 f j) * we2 j) + be2)

/-- The edge's result: the second head on the gated features. -/
def edgeOut (We1 : Fin 133 → Fin 64 → EReal) (be1 we2 : Fin 64 → EReal) (be2 : EReal)
    (Wl1 : Fin 133 → Fin 64 → EReal) (bl1 wl2 : Fin 64 → EReal) (bl2 : EReal) (f : Fin 133 → EReal) : EReal :=
  (∑ j : Fin 64, max (affine Wl1 bl1 (fun k => f k * gate We1 be1 we2 be2 f) j) zero * wl2 j) + bl2

/-- A node's projected hidden row: `max (Σ_k h_k · Wnp_kj + bnp_j) 0`. -/
def proj (Wnp : Fin 64 → Fin 64 → EReal) (bnp : Fin 64 → EReal) (h : Fin 64 → EReal) (j : Fin 64) : EReal :=
  max (affine Wnp bnp h j) zero

/-- The 133 features laid end to end: source row, destination row, edge features. -/
def feat (hs hd : Fin 64 → EReal) (ef : Fin 5 → EReal) (k : Fin 133) : EReal :=
  if h : k.val < 64 then hs ⟨k.val, h⟩
  else if h2 : k.val < 128 then hd ⟨k.val - 64, by omega⟩
  else ef ⟨k.val - 128, by omega⟩

theorem feat_src (hs hd : Fin 64 → EReal) (ef : Fin 5 → EReal) (k : Fin 133) (h : k.val < 64) :
    feat hs hd ef k = hs ⟨k.val, h⟩ := dif_pos h

theorem feat_dst (hs hd : Fin 64 → EReal) (ef : Fin 5 → EReal) (k : Fin 133) (h : ¬ k.val < 64) (h2 : k.val < 128) :
    feat hs hd ef k = hd ⟨k.val - 64, by omega⟩ := by
  unfold feat; rw [dif_neg h, dif_pos h2]

theorem feat_edge (hs hd : Fin 64 → EReal) (ef : Fin 5 → EReal) (k : Fin 133) (h : ¬ k.val < 64) (h2 : ¬ k.val < 128) :
    feat hs hd ef k = ef ⟨k.val - 128, by omega⟩ := by
  unfold feat; rw [dif_neg h, dif_neg h2]

end Cert.EdgeSpec

end
-- ==== Proof.KernelRow.lean ====
/-
  The kernel body's arithmetic at one row of a block.

  A block holds 4000 edges. Row `p` of the block's result depends on row `p` of the three streamed inputs only
  (the two gathered projected rows and the edge's own features) and on the weights: the body lays the three pieces end
  to end into the 133 features of the row, and every later step is either row-wise (a product with a weight matrix read
  as a sum over the contracted axis, a sum along the lanes of the row, a value broadcast along the row) or pointwise.
  So the row's result is `EdgeSpec.edgeOut` of the row's features.
-/
import proofs.«177754_j68066641707575_2_alg».proof.Proof.Gen.KernelIdeal.Frame
import proofs.«177754_j68066641707575_2_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.EdgeSpec

variable {α : Type}

/-! ## Column forms of the layout operations -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads its one element everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-! ## The body's non-pointwise steps at a row -/

/-- A bias `[64]` laid as one row and broadcast over the block's rows reads, at `(p, j)`, the bias at `j`. -/
theorem bias_row (v : FVec Ideal S64 .f32) (p : Fin 4000) (j : Fin 64) :
    broadcastTo S4000x64 (shapeCast S1x64 v shapeCasts_S64_S1x64) broadcasts_S1x64_S4000x64 (ix2 p j) = v (ix1 j) :=
  (broadcastTo_1b_ab_apply _ _ p j).trans (shapeCast_a_1a_apply v _ 0 j)

/-- A one-element bias broadcast down the block's column reads that element. -/
theorem bias_col (v : FVec Ideal S1 .f32) (p : Fin 4000) (u : Fin 1) :
    broadcastTo S4000x1 (shapeCast S1x1 v shapeCasts_S1_S1x1) broadcasts_S1x1_S4000x1 (ix2 p u) = v (ix1 (0 : Fin 1)) :=
  (broadcastTo_11_a1_apply _ _ p u).trans (shapeCast_a_1a_apply v _ 0 0)

/-- The sum along the 64 lanes of row `p`. -/
theorem laneSum_row (src : FVec Ideal S4000x64 .f32) (hφ : FKind.Formats .f32)
    (hacc : (0x00000000#32 : BitVec 32) = 0x00000000#32) (p : Fin 4000) :
    multiReduction .add [1] S4000 src 0x00000000#32 reduces_S4000x64_S4000 hφ hacc (ix1 p) = ∑ k : Fin 64, src (ix2 p k) := by
  refine (Ideal.multiReduction_add_single src 0x00000000#32 reduces_S4000x64_S4000 hφ hacc (ix1 p)).trans ?_
  refine Finset.sum_congr rfl fun k _ => congrArg src ?_
  funext a
  refine Fin.ext ?_
  match a with
  | ⟨0, _⟩ => rfl
  | ⟨1, _⟩ => rfl

/-- The three pieces laid end to end along the row: row `p` of the result is the row's 133 features. -/
theorem concat_row (a b : S4000x64.Idx → EReal) (c : S4000x5.Idx → EReal) (p : Fin 4000) (k : Fin 133) :
    concatenate S4000x133 1 [⟨S4000x64, a⟩, ⟨S4000x64, b⟩, ⟨S4000x5, c⟩] concatenates_S4000x64_S4000x64_S4000x5_S4000x133_d1 (ix2 p k)
      = feat (fun j => a (ix2 p j)) (fun j => b (ix2 p j)) (fun j => c (ix2 p j)) k := by
  by_cases h1 : k.val < 64
  · rw [feat_src _ _ _ k h1]
    exact concatenate_apply_piece (t := S4000x133) (1 : Fin 2) [⟨S4000x64, a⟩, ⟨S4000x64, b⟩, ⟨S4000x5, c⟩] concatenates_S4000x64_S4000x64_S4000x5_S4000x133_d1 (ix2 p k) 0 (by show 0 < 3; omega) S4000x64 a rfl rfl 0 rfl (ix2 p ⟨k.val, h1⟩)
      (fun d hd => by
        match d with
        | ⟨0, _⟩ => rfl
        | ⟨1, _⟩ => exact absurd rfl hd)
      (by show 0 + k.val = k.val; omega)
  · by_cases h2 : k.val < 128
    · rw [feat_dst _ _ _ k h1 h2]
      exact concatenate_apply_piece (t := S4000x133) (1 : Fin 2) [⟨S4000x64, a⟩, ⟨S4000x64, b⟩, ⟨S4000x5, c⟩] concatenates_S4000x64_S4000x64_S4000x5_S4000x133_d1 (ix2 p k) 1 (by show 1 < 3; omega) S4000x64 b rfl rfl 64 rfl
        (ix2 p ⟨k.val - 64, by omega⟩)
        (fun d hd => by
          match d with
          | ⟨0, _⟩ => rfl
          | ⟨1, _⟩ => exact absurd rfl hd)
        (by show 64 + (k.val - 64) = k.val; omega)
    · rw [feat_edge _ _ _ k h1 h2]
      exact concatenate_apply_piece (t := S4000x133) (1 : Fin 2) [⟨S4000x64, a⟩, ⟨S4000x64, b⟩, ⟨S4000x5, c⟩] concatenates_S4000x64_S4000x64_S4000x5_S4000x133_d1 (ix2 p k) 2 (by show 2 < 3; omega) S4000x5 c rfl rfl 128 rfl
        (ix2 p ⟨k.val - 128, by have := k.isLt; omega⟩)
        (fun d hd => by
          match d with
          | ⟨0, _⟩ => rfl
          | ⟨1, _⟩ => exact absurd rfl hd)
        (by show 128 + (k.val - 128) = k.val; omega)

/-! ## The block product as a sum over the 133 features -/

/-- The dimension numbers of the body's two products: `[4000, 133] × [133, 64]`, contracting the 133. -/
abbrev DM : DotDims S4000x133 S133x64 S4000x64 := dot_S4000x133_S133x64_S4000x64_1_0_0_1_n_n

theorem mm_lhs0 (i : S4000x64.Idx) (q : DM.contr.Idx) : (DM.lhsIdx i q 0).val = (i 0).val := by
  unfold DotDims.lhsIdx
  rw [dif_neg (show ¬(0 : Fin S4000x133.rank) ∈ DM.lhsBatch by decide), dif_pos (show (0 : Fin S4000x133.rank) ∈ DM.lhsNonContracting by decide)]
  rfl
theorem mm_lhs1 (i : S4000x64.Idx) (q : DM.contr.Idx) : (DM.lhsIdx i q 1).val = (q ⟨0, by decide⟩).val :=
  DM.lhsIdx_val_of_single rfl i q
theorem mm_rhs0 (i : S4000x64.Idx) (q : DM.contr.Idx) : (DM.rhsIdx i q 0).val = (q ⟨0, by decide⟩).val :=
  DM.rhsIdx_val_of_single rfl i q
theorem mm_rhs1 (i : S4000x64.Idx) (q : DM.contr.Idx) : (DM.rhsIdx i q 1).val = (i 1).val := by
  unfold DotDims.rhsIdx
  rw [dif_neg (show ¬(1 : Fin S133x64.rank) ∈ DM.rhsBatch by decide), dif_pos (show (1 : Fin S133x64.rank) ∈ DM.rhsNonContracting by decide)]
  rfl

/-- A block product into the zero accumulator at `(p, j)`: the sum over the contracted axis of row `p` of the left
    operand against column `j` of the right. -/
theorem matmul_row (A : FVec Ideal S4000x133 .bf16) (B : FVec Ideal S133x64 .bf16) (p : Fin 4000) (j : Fin 64) :
    matmul DM none A B (constant (F := Ideal) S4000x64 .f32 0x00000000#32) (ix2 p j) = ∑ k : Fin 133, A (ix2 p k) * B (ix2 k j) := by
  simp only [matmul]
  rw [Ideal.matmul_constant_zero_apply, ← Equiv.sum_comp (contrEquiv1 DM 133 rfl rfl).symm]
  refine Finset.sum_congr rfl fun k _ => ?_
  have hk := contrEquiv1_symm_val DM 133 rfl rfl k
  have el : DM.lhsIdx (ix2 p j) ((contrEquiv1 DM 133 rfl rfl).symm k) = ix2 p k := funext fun a => Fin.ext (by
    match a with
    | ⟨0, _⟩ => exact mm_lhs0 _ _
    | ⟨1, _⟩ => exact (mm_lhs1 _ _).trans hk)
  have er : DM.rhsIdx (ix2 p j) ((contrEquiv1 DM 133 rfl rfl).symm k) = ix2 k j := funext fun a => Fin.ext (by
    match a with
    | ⟨0, _⟩ => exact (mm_rhs0 _ _).trans hk
    | ⟨1, _⟩ => exact mm_rhs1 _ _)
  rw [el, er]

/-! ## The body as a tree of vector operations, and each node at a row -/

/-- `tanh` and the logistic of a vector are pointwise. -/
theorem tanh_at {s : Shape} (v : FVec Ideal s .f32) (i : s.Idx) : tanh v i = Ideal.tanh (v i) := rfl
theorem logistic_at {s : Shape} (v : FVec Ideal s .f32) (i : s.Idx) : logistic v i = Ideal.logistic (v i) := rfl

/-- The 133 features of row `p` of a block: row `p` of the two gathered blocks and of the edge-feature block. -/
def frow (P0 P1 : FVec Ideal S4000x64 .bf16) (P2 : FVec Ideal S4000x5 .f32) (p : Fin 4000) : Fin 133 → EReal :=
  feat (fun j => P0 (ix2 p j)) (fun j => P1 (ix2 p j)) (fun j => P2 (ix2 p j))

/-- The block of features: the two gathered blocks widened (which changes nothing on the extended reals) and the
    edge-feature block, laid end to end along the row. -/
def vEF (P0 P1 : FVec Ideal S4000x64 .bf16) (P2 : FVec Ideal S4000x5 .f32) : FVec Ideal S4000x133 .f32 :=
  concatenate S4000x133 1 [⟨S4000x64, extf .f32 (shapeCast S4000x64 P0 shapeCasts_S4000x64_S4000x64) bitsLt_bf16_f32⟩,
    ⟨S4000x64, extf .f32 (shapeCast S4000x64 P1 shapeCasts_S4000x64_S4000x64) bitsLt_bf16_f32⟩, ⟨S4000x5, P2⟩]
    concatenates_S4000x64_S4000x64_S4000x5_S4000x133_d1

/-- An affine layer on a block of features: the product with the weight matrix (into the zero accumulator) plus the
    bias on every row. -/
def vAff (X : FVec Ideal S4000x133 .f32) (W : FVec Ideal S133x64 .bf16) (b : FVec Ideal S64 .f32) : FVec Ideal S4000x64 .f32 :=
  addf (matmul dot_S4000x133_S133x64_S4000x64_1_0_0_1_n_n none (truncf .bf16 X bitsLt_bf16_f32)
      (shapeCast S133x64 W shapeCasts_S133x64_S133x64) (constant S4000x64 .f32 0x00000000#32))
    (broadcastTo S4000x64 (shapeCast S1x64 b shapeCasts_S64_S1x64) broadcasts_S1x64_S4000x64)

/-- A head with one output: each row's sum, along the row, of the hidden layer against the weight vector, plus the
    bias — kept as a column. -/
def vHead (Y : FVec Ideal S4000x64 .f32) (w : FVec Ideal S64 .f32) (b : FVec Ideal S1 .f32) : FVec Ideal S4000x1 .f32 :=
  addf (shapeCast S4000x1 (multiReduction .add [1] S4000
      (mulf Y (broadcastTo S4000x64 (shapeCast S1x64 (shapeCast S64 w shapeCasts_S64_S64) shapeCasts_S64_S1x64) broadcasts_S1x64_S4000x64))
      0x00000000#32 reduces_S4000x64_S4000 (.inl rfl) rfl) shapeCasts_S4000_S4000x1)
    (broadcastTo S4000x1 (shapeCast S1x1 b shapeCasts_S1_S1x1) broadcasts_S1x1_S4000x1)

section Tree

variable (P0 P1 : FVec Ideal S4000x64 .bf16) (P2 : FVec Ideal S4000x5 .f32) (P3 : FVec Ideal S133x64 .bf16)
  (P4 P5 : FVec Ideal S64 .f32) (P6 : FVec Ideal S1 .f32) (P7 : FVec Ideal S133x64 .bf16) (P8 P9 : FVec Ideal S64 .f32)
  (P10 : FVec Ideal S1 .f32)

/-- The body's hidden layer of the second head is this tree: the features, gated by the logistic of the first head
    (itself on `tanh` of the first affine layer), through the second affine layer, clipped below at zero. -/
theorem pay2_tree : k0_pay2 (F := Ideal) P0 P1 P2 P3 P4 P5 P6 P7 P8
    = maximumf (vAff (mulf (vEF P0 P1 P2)
          (broadcastTo S4000x133 (logistic (vHead (tanh (vAff (vEF P0 P1 P2) P3 P4)) P5 P6)) broadcasts_S4000x1_S4000x133)) P7 P8)
        (broadcast S4000x64 (Scalar.ofBits .f32 0x00000000#32)) := rfl

/-- The body's stored value is the second head on that hidden layer. -/
theorem pay1_tree (Y : FVec Ideal S4000x64 .f32) : k0_pay1 (F := Ideal) Y P9 P10 = vHead Y P9 P10 := rfl

theorem vEF_at (p : Fin 4000) (k : Fin 133) : vEF P0 P1 P2 (ix2 p k) = frow P0 P1 P2 p k := by
  unfold vEF
  rw [concat_row]
  simp only [shapeCast_self, extf_apply]
  rfl

theorem vAff_at (X : FVec Ideal S4000x133 .f32) (W : FVec Ideal S133x64 .bf16) (b : FVec Ideal S64 .f32) (p : Fin 4000) (j : Fin 64) :
    vAff X W b (ix2 p j) = affine (fun k j => W (ix2 k j)) (fun j => b (ix1 j)) (fun k => X (ix2 p k)) j := by
  unfold vAff affine
  rw [addf_apply, matmul_row, bias_row]
  simp only [truncf_apply, shapeCast_self]

theorem vHead_at (Y : FVec Ideal S4000x64 .f32) (w : FVec Ideal S64 .f32) (b : FVec Ideal S1 .f32) (p : Fin 4000) (u : Fin 1) :
    vHead Y w b (ix2 p u) = (∑ j : Fin 64, Y (ix2 p j) * w (ix1 j)) + b (ix1 (0 : Fin 1)) := by
  unfold vHead
  rw [addf_apply, shapeCast_a_a1_apply, bias_col]
  refine congrArg (· + b (ix1 (0 : Fin 1))) ?_
  refine (laneSum_row _ _ _ p).trans ?_
  refine Finset.sum_congr rfl fun j _ => ?_
  rw [mulf_apply, bias_row, shapeCast_self]

/-- The body's hidden layer of the second head at `(p, j)`. -/
theorem pay2_at (p : Fin 4000) (j : Fin 64) :
    k0_pay2 (F := Ideal) P0 P1 P2 P3 P4 P5 P6 P7 P8 (ix2 p j)
      = max (affine (fun k j => P7 (ix2 k j)) (fun j => P8 (ix1 j))
          (fun k => frow P0 P1 P2 p k
            * gate (fun k j => P3 (ix2 k j)) (fun j => P4 (ix1 j)) (fun j => P5 (ix1 j)) (P6 (ix1 (0 : Fin 1))) (frow P0 P1 P2 p)) j)
          zero := by
  rw [pay2_tree, maximumf_apply, vAff_at, broadcast_apply]
  unfold gate
  simp only [mulf_apply, vEF_at, broadcastTo_a1_ab_apply, logistic_at, vHead_at, tanh_at, vAff_at]
  rfl

/-- Row `p` of the block the body stores: the edge's result on the row's features. -/
theorem pay1_at (p : Fin 4000) (u : Fin 1) :
    k0_pay1 (F := Ideal) (k0_pay2 (F := Ideal) P0 P1 P2 P3 P4 P5 P6 P7 P8) P9 P10 (ix2 p u)
      = edgeOut (fun k j => P3 (ix2 k j)) (fun j => P4 (ix1 j)) (fun j => P5 (ix1 j)) (P6 (ix1 (0 : Fin 1)))
          (fun k j => P7 (ix2 k j)) (fun j => P8 (ix1 j)) (fun j => P9 (ix1 j)) (P10 (ix1 (0 : Fin 1))) (frow P0 P1 P2 p) := by
  rw [pay1_tree, vHead_at]
  unfold edgeOut
  simp only [pay2_at]

/-- The same with the rows of the three streamed blocks and the weights named: whatever the blocks are, if row `p` of
    the streamed ones and the whole of the resident ones are these functions, the stored row is the edge's result on them. -/
theorem row_value (p : Fin 4000) (u : Fin 1)
    (We1 : Fin 133 → Fin 64 → EReal) (be1 we2 : Fin 64 → EReal) (be2 : EReal)
    (Wl1 : Fin 133 → Fin 64 → EReal) (bl1 wl2 : Fin 64 → EReal) (bl2 : EReal)
    (hs hd : Fin 64 → EReal) (ef : Fin 5 → EReal)
    (h0 : ∀ j, P0 (ix2 p j) = hs j) (h1 : ∀ j, P1 (ix2 p j) = hd j) (h2 : ∀ j, P2 (ix2 p j) = ef j)
    (h3 : ∀ k j, P3 (ix2 k j) = We1 k j) (h4 : ∀ j, P4 (ix1 j) = be1 j) (h5 : ∀ j, P5 (ix1 j) = we2 j)
    (h6 : P6 (ix1 (0 : Fin 1)) = be2)
    (h7 : ∀ k j, P7 (ix2 k j) = Wl1 k j) (h8 : ∀ j, P8 (ix1 j) = bl1 j) (h9 : ∀ j, P9 (ix1 j) = wl2 j)
    (h10 : P10 (ix1 (0 : Fin 1)) = bl2) :
    k0_pay1 (F := Ideal) (k0_pay2 (F := Ideal) P0 P1 P2 P3 P4 P5 P6 P7 P8) P9 P10 (ix2 p u)
      = edgeOut We1 be1 we2 be2 Wl1 bl1 wl2 bl2 (feat hs hd ef) := by
  rw [pay1_at]
  unfold frow
  rw [funext h0, funext h1, funext h2, funext fun k => funext (h3 k), funext h4, funext h5, h6,
    funext fun k => funext (h7 k), funext h8, funext h9, h10]

end Tree

end Cert.KernelIdeal.Row

end
-- ==== Proof.KernelBlocks.lean ====
/-
  From blocks to the whole result array.

  The grid has 400 points; point `t` stages rows `4000 t … 4000 t + 3999` of the two gathered arrays and of the edge
  features, the whole of every weight, and writes back rows `4000 t … 4000 t + 3999` of the result. Row `p` of the block
  point `t` writes is the edge's result (`EdgeSpec.edgeOut`) on the features of edge `4000 t + p` — read off the arrays as
  the region finds them —, so the block is block `t` of ONE function of the edge index; the 400 blocks cover the 1,600,000
  rows (row `r` is in the block of point `r / 4000`), hence the result array IS that function.
-/
import proofs.«177754_j68066641707575_2_alg».proof.Proof.KernelRow
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.EdgeSpec Cert.KernelIdeal.Row
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The printed index maps, decided over the grid: the three streamed windows and the output move down their arrays
    one block per point; every weight's window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = 0 ∧ win0_7.index t (1 : Fin 2) = 0
    ∧ win0_8.index t (0 : Fin 1) = 0 ∧ win0_9.index t (0 : Fin 1) = 0 ∧ win0_10.index t (0 : Fin 1) = 0
    ∧ win0_11.index t (0 : Fin 2) = t.val ∧ win0_11.index t (1 : Fin 2) = 0 :=
  (by decide +kernel : ∀ t : Fin grid0.N, _)

/-- Edge `e`'s result from the arrays as the region finds them: the weights' arrays whole, row `e` of the two gathered
    arrays and of the edge features. -/
def kEdge (c : Dev nD) (e : Fin 1600000) : EReal :=
  edgeOut (fun k j => (V m c main_v67 : S133x64.Idx → EReal) (ix2 k j)) (fun j => (V m c main_arg13 : S64.Idx → EReal) (ix1 j))
    (fun j => (V m c main_v69 : S64.Idx → EReal) (ix1 j)) ((V m c main_arg15 : S1.Idx → EReal) (ix1 (0 : Fin 1)))
    (fun k j => (V m c main_v68 : S133x64.Idx → EReal) (ix2 k j)) (fun j => (V m c main_arg17 : S64.Idx → EReal) (ix1 j))
    (fun j => (V m c main_v70 : S64.Idx → EReal) (ix1 j)) ((V m c main_arg19 : S1.Idx → EReal) (ix1 (0 : Fin 1)))
    (feat (fun j => (V m c main_v59 : S1600000x64.Idx → EReal) (ix2 e j))
      (fun j => (V m c main_v66 : S1600000x64.Idx → EReal) (ix2 e j))
      (fun j => (V m c main_arg1 : S1600000x5.Idx → EReal) (ix2 e j)))

/-- The result array as one function of the index: row `r` holds edge `r`'s result. -/
def G (c : Dev nD) : S1600000x1.Idx → EReal := fun i => kEdge m c ⟨(i 0).val, idx2_lt0 i⟩

/-- The array row under row `p` of point `t`'s output block. -/
def rowOf (t : Fin cfg0.N) (p : Fin 4000) (u : Fin 1) : Fin 1600000 :=
  ⟨(((cfg0.win 11).blk t).view.emb (ix2 p u) 0).val, idx2_lt0 _⟩

/-! ## Each window's block, read where the output block's rectangle says -/

theorem blk0 (c : Dev nD) (t : Fin cfg0.N) (p : Fin 4000) (u : Fin 1) (j : Fin 64) :
    iblk m c 0 t (ix2 p j) = (V m c main_v59 : S1600000x64.Idx → EReal) (ix2 (rowOf t p u) j) := by
  obtain ⟨a0, a1, -, -, -, -, -, -, -, -, -, -, -, -, -, -, o0, o1⟩ := idx_facts t
  show V m c main_v59 (((cfg0.win 0).blk t).view.emb (ix2 p j)) = V m c main_v59 (ix2 (rowOf t p u) j)
  refine congrArg (V m c main_v59) (funext fun a => Fin.ext ?_)
  match a with
  | ⟨0, _⟩ =>
    show win0_0.index t (0 : Fin 2) * 4000 + 1 * p.val = win0_11.index t (0 : Fin 2) * 4000 + 1 * p.val
    omega
  | ⟨1, _⟩ =>
    show win0_0.index t (1 : Fin 2) * 64 + 1 * j.val = j.val
    omega

theorem blk1 (c : Dev nD) (t : Fin cfg0.N) (p : Fin 4000) (u : Fin 1) (j : Fin 64) :
    iblk m c 1 t (ix2 p j) = (V m c main_v66 : S1600000x64.Idx → EReal) (ix2 (rowOf t p u) j) := by
  obtain ⟨-, -, a0, a1, -, -, -, -, -, -, -, -, -, -, -, -, o0, o1⟩ := idx_facts t
  show V m c main_v66 (((cfg0.win 1).blk t).view.emb (ix2 p j)) = V m c main_v66 (ix2 (rowOf t p u) j)
  refine congrArg (V m c main_v66) (funext fun a => Fin.ext ?_)
  match a with
  | ⟨0, _⟩ =>
    show win0_1.index t (0 : Fin 2) * 4000 + 1 * p.val = win0_11.index t (0 : Fin 2) * 4000 + 1 * p.val
    omega
  | ⟨1, _⟩ =>
    show win0_1.index t (1 : Fin 2) * 64 + 1 * j.val = j.val
    omega

theorem blk2 (c : Dev nD) (t : Fin cfg0.N) (p : Fin 4000) (u : Fin 1) (j : Fin 5) :
    iblk m c 2 t (ix2 p j) = (V m c main_arg1 : S1600000x5.Idx → EReal) (ix2 (rowOf t p u) j) := by
  obtain ⟨-, -, -, -, a0, a1, -, -, -, -, -, -, -, -, -, -, o0, o1⟩ := idx_facts t
  show V m c main_arg1 (((cfg0.win 2).blk t).view.emb (ix2 p j)) = V m c main_arg1 (ix2 (rowOf t p u) j)
  refine congrArg (V m c main_arg1) (funext fun a => Fin.ext ?_)
  match a with
  | ⟨0, _⟩ =>
    show win0_2.index t (0 : Fin 2) * 4000 + 1 * p.val = win0_11.index t (0 : Fin 2) * 4000 + 1 * p.val
    omega
  | ⟨1, _⟩ =>
    show win0_2.index t (1 : Fin 2) * 5 + 1 * j.val = j.val
    omega

theorem blk3 (c : Dev nD) (t : Fin cfg0.N) (k : Fin 133) (j : Fin 64) :
    iblk m c 3 t (ix2 k j) = (V m c main_v67 : S133x64.Idx → EReal) (ix2 k j) := by
  obtain ⟨-, -, -, -, -, -, a0, a1, -, -, -, -, -, -, -, -, -, -⟩ := idx_facts t
  show V m c main_v67 (((cfg0.win 3).blk t).view.emb (ix2 k j)) = V m c main_v67 (ix2 k j)
  refine congrArg (V m c main_v67) (funext fun a => Fin.ext ?_)
  match a with
  | ⟨0, _⟩ =>
    show win0_3.index t (0 : Fin 2) * 133 + 1 * k.val = k.val
    omega
  | ⟨1, _⟩ =>
    show win0_3.index t (1 : Fin 2) * 64 + 1 * j.val = j.val
    omega

theorem blk7 (c : Dev nD) (t : Fin cfg0.N) (k : Fin 133) (j : Fin 64) :
    iblk m c 7 t (ix2 k j) = (V m c main_v68 : S133x64.Idx → EReal) (ix2 k j) := by
  obtain ⟨-, -, -, -, -, -, -, -, -, -, -, a0, a1, -, -, -, -, -⟩ := idx_facts t
  show V m c main_v68 (((cfg0.win 7).blk t).view.emb (ix2 k j)) = V m c main_v68 (ix2 k j)
  refine congrArg (V m c main_v68) (funext fun a => Fin.ext ?_)
  match a with
  | ⟨0, _⟩ =>
    show win0_7.index t (0 : Fin 2) * 133 + 1 * k.val = k.val
    omega
  | ⟨1, _⟩ =>
    show win0_7.index t (1 : Fin 2) * 64 + 1 * j.val = j.val
    omega

theorem blk4 (c : Dev nD) (t : Fin cfg0.N) (j : Fin 64) :
    iblk m c 4 t (ix1 j) = (V m c main_arg13 : S64.Idx → EReal) (ix1 j) := by
  obtain ⟨-, -, -, -, -, -, -, -, a0, -, -, -, -, -, -, -, -, -⟩ := idx_facts t
  show V m c main_arg13 (((cfg0.win 4).blk t).view.emb (ix1 j)) = V m c main_arg13 (ix1 j)
  refine congrArg (V m c main_arg13) (funext fun a => Fin.ext ?_)
  match a with
  | ⟨0, _⟩ =>
    show win0_4.index t (0 : Fin 1) * 64 + 1 * j.val = j.val
    omega

theorem blk5 (c : Dev nD) (t : Fin cfg0.N) (j : Fin 64) :
    iblk m c 5 t (ix1 j) = (V m c main_v69 : S64.Idx → EReal) (ix1 j) := by
  obtain ⟨-, -, -, -, -, -, -, -, -, a0, -, -, -, -, -, -, -, -⟩ := idx_facts t
  show V m c main_v69 (((cfg0.win 5).blk t).view.emb (ix1 j)) = V m c main_v69 (ix1 j)
  refine congrArg (V m c main_v69) (funext fun a => Fin.ext ?_)
  match a with
  | ⟨0, _⟩ =>
    show win0_5.index t (0 : Fin 1) * 64 + 1 * j.val = j.val
    omega

theorem blk6 (c : Dev nD) (t : Fin cfg0.N) :
    iblk m c 6 t (ix1 (0 : Fin 1)) = (V m c main_arg15 : S1.Idx → EReal) (ix1 (0 : Fin 1)) := by
  obtain ⟨-, -, -, -, -, -, -, -, -, -, a0, -, -, -, -, -, -, -⟩ := idx_facts t
  show V m c main_arg15 (((cfg0.win 6).blk t).view.emb (ix1 (0 : Fin 1))) = V m c main_arg15 (ix1 (0 : Fin 1))
  refine congrArg (V m c main_arg15) (funext fun a => Fin.ext ?_)
  match a with
  | ⟨0, _⟩ =>
    show win0_6.index t (0 : Fin 1) * 1 + 1 * 0 = 0
    omega

theorem blk8 (c : Dev nD) (t : Fin cfg0.N) (j : Fin 64) :
    iblk m c 8 t (ix1 j) = (V m c main_arg17 : S64.Idx → EReal) (ix1 j) := by
  obtain ⟨-, -, -, -, -, -, -, -, -, -, -, -, -, a0, -, -, -, -⟩ := idx_facts t
  show V m c main_arg17 (((cfg0.win 8).blk t).view.emb (ix1 j)) = V m c main_arg17 (ix1 j)
  refine congrArg (V m c main_arg17) (funext fun a => Fin.ext ?_)
  match a with
  | ⟨0, _⟩ =>
    show win0_8.index t (0 : Fin 1) * 64 + 1 * j.val = j.val
    omega

theorem blk9 (c : Dev nD) (t : Fin cfg0.N) (j : Fin 64) :
    iblk m c 9 t (ix1 j) = (V m c main_v70 : S64.Idx → EReal) (ix1 j) := by
  obtain ⟨-, -, -, -, -, -, -, -, -, -, -, -, -, -, a0, -, -, -⟩ := idx_facts t
  show V m c main_v70 (((cfg0.win 9).blk t).view.emb (ix1 j)) = V m c main_v70 (ix1 j)
  refine congrArg (V m c main_v70) (funext fun a => Fin.ext ?_)
  match a with
  | ⟨0, _⟩ =>
    show win0_9.index t (0 : Fin 1) * 64 + 1 * j.val = j.val
    omega

theorem blk10 (c : Dev nD) (t : Fin cfg0.N) :
    iblk m c 10 t (ix1 (0 : Fin 1)) = (V m c main_arg19 : S1.Idx → EReal) (ix1 (0 : Fin 1)) := by
  obtain ⟨-, -, -, -, -, -, -, -, -, -, -, -, -, -, -, a0, -, -⟩ := idx_facts t
  show V m c main_arg19 (((cfg0.win 10).blk t).view.emb (ix1 (0 : Fin 1))) = V m c main_arg19 (ix1 (0 : Fin 1))
  refine congrArg (V m c main_arg19) (funext fun a => Fin.ext ?_)
  match a with
  | ⟨0, _⟩ =>
    show win0_10.index t (0 : Fin 1) * 1 + 1 * 0 = 0
    omega

/-! ## What a point writes back, the cover, the array -/

/-- What point `t` writes back is block `t` of `G`. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  unfold out0_11
  rw [View.canon_unit_zero hz]
  simp only [View.ld_unit_zero (S := S4000x64) hz, View.ld_unit_zero (S := S4000x5) hz, View.ld_unit_zero (S := S133x64) hz,
    View.ld_unit_zero (S := S64) hz1, View.ld_unit_zero (S := S1) hz1]
  funext y
  obtain ⟨p, u, rfl⟩ : ∃ (p : Fin 4000) (u : Fin 1), y = ix2 p u := ⟨y 0, y 1, eq_ix2 y⟩
  exact row_value (iblk m c 0 t) (iblk m c 1 t) (iblk m c 2 t) (iblk m c 3 t) (iblk m c 4 t) (iblk m c 5 t) (iblk m c 6 t)
    (iblk m c 7 t) (iblk m c 8 t) (iblk m c 9 t) (iblk m c 10 t) p u _ _ _ _ _ _ _ _ _ _ _
    (fun j => blk0 m c t p u j) (fun j => blk1 m c t p u j) (fun j => blk2 m c t p u j)
    (fun k j => blk3 m c t k j) (fun j => blk4 m c t j) (fun j => blk5 m c t j) (blk6 m c t)
    (fun k j => blk7 m c t k j) (fun j => blk8 m c t j) (fun j => blk9 m c t j) (blk10 m c t)

/-- An index of the array is in point `t`'s block iff each coordinate is in the block's range on its axis. -/
theorem mem_blk (t : Fin cfg0.N) (i : S1600000x1.Idx) :
    i ∈ ((cfg0.win 11).blk t).view.set ↔ ∀ a : Fin 2, win0_11.index t a * S4000x1.size a ≤ (i a).val
      ∧ (i a).val < win0_11.index t a * S4000x1.size a + S4000x1.size a := by
  show i ∈ ((View.whole main_v71).slice (win0_11.rect t)).set ↔ _
  rw [View.set_slice_whole, Rect.mem_set_unit]
  exact Iff.rfl

/-- Every row of the array is in some point's block: row `r` in the block of point `r / 4000`. -/
theorem cover (i : S1600000x1.Idx) :
    ∃ t : Fin cfg0.N, (cfg0.win 11).flush t = true ∧ i ∈ ((cfg0.win 11).blk t).view.set := by
  have hN : grid0.N = 400 := N_0
  have hi0 : (i 0).val < 1600000 := idx2_lt0 i
  have hi1 : (i 1).val < 1 := idx2_lt1 i
  let t : Fin cfg0.N := ⟨(i 0).val / 4000, by show (i 0).val / 4000 < grid0.N; omega⟩
  obtain ⟨-, -, -, -, -, -, -, -, -, -, -, -, -, -, -, -, o0, o1⟩ := idx_facts t
  have ht : t.val = (i 0).val / 4000 := rfl
  refine ⟨t, flush0_11 t, ?_⟩
  rw [mem_blk]
  intro a
  match a with
  | ⟨0, _⟩ =>
    show win0_11.index t (0 : Fin 2) * 4000 ≤ (i 0).val ∧ (i 0).val < win0_11.index t (0 : Fin 2) * 4000 + 4000
    omega
  | ⟨1, _⟩ =>
    show win0_11.index t (1 : Fin 2) * 1 ≤ (i 1).val ∧ (i 1).val < win0_11.index t (1 : Fin 2) * 1 + 1
    omega

/-- The result array after the run is `G`. -/
theorem final (c : Dev nD) : (dats m 0 c).arrAt 11 cfg0.N = G m c :=
  (dats m 0 c).arrAt_eq_of_cover 11 (G m c) (fun t _ => flushed_eq m c t) (cover)

/-- The kernel's run: the result array ends at `G`, every argument as launched. -/
theorem run : θ_run defs (onTc (τ := τ) (main (F := Ideal))) ⟨m, fun _ => 0, ρ⟩ fun r => ∀ c : Dev nD,
      r.2.mem ((c : Thread nD τ).loc main_v71) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨((h c).1 11).trans (final m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 4).trans (((dats m 0 c).arrAt_in 4 rfl _).trans ((A_eq m c 4).trans (V_main_arg13 m c))),
      ((h c).2 main_arg14 (Pipeline.mem_restRefs_of main_arg14 (by decide) (by decide))).trans (V_main_arg14 m c),
      ((h c).1 6).trans (((dats m 0 c).arrAt_in 6 rfl _).trans ((A_eq m c 6).trans (V_main_arg15 m c))),
      ((h c).2 main_arg16 (Pipeline.mem_restRefs_of main_arg16 (by decide) (by decide))).trans (V_main_arg16 m c),
      ((h c).1 8).trans (((dats m 0 c).arrAt_in 8 rfl _).trans ((A_eq m c 8).trans (V_main_arg17 m c))),
      ((h c).2 main_arg18 (Pipeline.mem_restRefs_of main_arg18 (by decide) (by decide))).trans (V_main_arg18 m c),
      ((h c).1 10).trans (((dats m 0 c).arrAt_in 10 rfl _).trans ((A_eq m c 10).trans (V_main_arg19 m c)))⟩)
    (run_main m ρ)

end Cert.KernelIdeal.Blocks

end
-- ==== Proof.RowGather.lean ====
/-
  A row gather read at an index.

  `x[idx]` of a matrix `x : [N, C]` at a column of integers `idx : [E, 1]` takes, for each `e`, one whole row of `x`:
  result element `(e, j)` is `x` at row `idx[e, 0]` (read signed, clamped into `[0, N − 1]`) and the same column `j`.
  The row depends on `idx` and `e` only — not on the column, not on the operand, not on its element type — so a
  function applied to every row of `x` may be applied before or after the gather.
-/
import Idealize.ShloMosaic.Lib.ValueIdx

noncomputable section

namespace Cert.RowGather

open Idealize.ShloMosaic Idealize.ShloMosaic.ValueIdx

variable {α : Type}

/-- The dimension numbers of a row gather: operand `[N, C]`, start indices `[E, 1]`, result `[E, C]`; axis 0 of the
    operand is indexed and collapsed, axis 1 is taken whole. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: the start index `idx[e, 0]`, signed, clamped into `[0, N − 1]`. -/
def row {N E w : Nat} (hN : 0 < N) (idx : IVec ⟨2, ![E, 1]⟩ w) (e : Fin E) : Fin N :=
  ⟨min (idx (ix2 e ⟨0, Nat.one_pos⟩)).toInt.toNat (N - 1), by omega⟩

/-- The gather at `(e, j)` is the operand at `(row e, j)`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j) = x (ix2 (row hN idx e) j) := by
  unfold Host.gather
  congr 1
  funext a
  refine Fin.ext ?_
  match a with
  | ⟨0, _⟩ =>
    show (rowDims N C E wf).start (ix2 e j) idx 0 + (rowDims N C E wf).batchCoord (ix2 e j) 0
        + (rowDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowDims N C E wf).start (ix2 e j) idx 1 + (rowDims N C E wf).batchCoord (ix2 e j) 1
        + (rowDims N C E wf).offCoord (ix2 e j) 1 = j.val
    rw [GatherDims.batchCoord_eq_zero _ _ _ List.not_mem_nil]
    have hs : (rowDims N C E wf).start (ix2 e j) idx 1 = 0 := by
      unfold GatherDims.start
      rw [dif_neg (show (1 : Fin 2) ∉ (rowDims N C E wf).startIndexMap from
        fun h => absurd (List.mem_singleton.mp h) (fun h' => Nat.one_ne_zero (congrArg Fin.val h')))]
    have hk : (1 : Fin 2) ∈ (rowDims N C E wf).sKept :=
      (GatherDims.mem_sKept _ _).mpr ⟨fun h => absurd (List.mem_singleton.mp h) (fun h' => Nat.one_ne_zero (congrArg Fin.val h')), List.not_mem_nil⟩
    rw [hs]
    unfold GatherDims.offCoord
    rw [dif_pos hk]
    simp only [Nat.zero_add, Nat.add_zero]
    rfl

end Cert.RowGather

end
-- ==== Proof.RefRow.lean ====
/-
  The reference program read at one edge.

  For an edge `e` the reference gathers the hidden rows of the edge's source and destination nodes, projects each
  (`max (h · Wnp + bnp) 0`), lays the two projected rows and the edge's own five features end to end into 133 features,
  and applies two heads to them: the first gives a gate, the logistic of `tanh (f · We1 + be1) · we2 + be2`; the second,
  on the features scaled by the gate, gives the result `max ((f · gate) · Wl1 + bl1) 0 · wl2 + bl2`.
  Every step is read at an index: a product with a weight matrix is a sum over the contracted axis, a bias is broadcast
  along the rows, a row gather reads one row of its operand, the concatenation reads the piece its column falls in, and
  the rest is pointwise. No algebraic law is used: the reference's element `(e, 0)` IS `EdgeSpec.edgeOut` of the edge's
  features, term for term. The hidden rows themselves (two graph-convolution layers) stay an opaque function of the
  arguments.
-/
import proofs.«177754_j68066641707575_2_alg».proof.Proof.Gen.ReferenceIdeal.Read
import proofs.«177754_j68066641707575_2_alg».proof.Proof.EdgeSpec
import proofs.«177754_j68066641707575_2_alg».proof.Proof.RowGather
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefRow

open Cert.ReferenceIdeal Cert.ReferenceIdeal.Read Idealize.ShloMosaic Idealize.ShloMosaic.ValueIdx Cert.EdgeSpec

variable (x0 : (⟨S100000x4, .f32⟩ : BufTy).Contents (Elt Ideal)) (x1 : (⟨S1600000x5, .f32⟩ : BufTy).Contents (Elt Ideal)) (x2 x3 : (⟨S1600000, .i32⟩ : BufTy).Contents (Elt Ideal))
  (x4 x5 : (⟨S4x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal)) (x12 : (⟨S133x64, .f32⟩ : BufTy).Contents (Elt Ideal)) (x13 : (⟨S64, .f32⟩ : BufTy).Contents (Elt Ideal))
  (x14 : (⟨S64x1, .f32⟩ : BufTy).Contents (Elt Ideal)) (x15 : (⟨S1, .f32⟩ : BufTy).Contents (Elt Ideal)) (x16 : (⟨S133x64, .f32⟩ : BufTy).Contents (Elt Ideal)) (x17 : (⟨S64, .f32⟩ : BufTy).Contents (Elt Ideal))
  (x18 : (⟨S64x1, .f32⟩ : BufTy).Contents (Elt Ideal)) (x19 : (⟨S1, .f32⟩ : BufTy).Contents (Elt Ideal))

/-- The hidden rows, `[100000, 64]`: an opaque function of the node features, the edge lists and the two layers' weights. -/
abbrev hid : S100000x64.Idx → EReal := val_main_v46 (F := Ideal) x0 x2 x3 x4 x5 x6 x7 x8 x9
/-- The node row edge `e` reads through its source index. -/
abbrev srcRow (e : Fin 1600000) : Fin 100000 :=
  Cert.RowGather.row (N := 100000) (by norm_num) (val_main_v52 (F := Ideal) x2) e
/-- The node row edge `e` reads through its destination index. -/
abbrev dstRow (e : Fin 1600000) : Fin 100000 :=
  Cert.RowGather.row (N := 100000) (by norm_num) (val_main_v64 (F := Ideal) x3) e

/-! ## Index equations

  Where each product reads its operands — row `e` of the left at the contracted coordinate `k`, row `k` of the right
  at the result's column — and where each broadcast bias reads its operand, written with the literal-size index
  constructors. -/

theorem lidx54 (e : Fin 1600000) (j : Fin 64) (k : Fin 64) : lidx_main_v54 (ix2 e j) k = ix2 e k :=
  funext fun a => Fin.ext (by match a with | ⟨0, _⟩ => rfl | ⟨1, _⟩ => rfl)
theorem ridx54 (e : Fin 1600000) (j : Fin 64) (k : Fin 64) : ridx_main_v54 (ix2 e j) k = ix2 k j :=
  funext fun a => Fin.ext (by match a with | ⟨0, _⟩ => rfl | ⟨1, _⟩ => rfl)
theorem lidx66 (e : Fin 1600000) (j : Fin 64) (k : Fin 64) : lidx_main_v66 (ix2 e j) k = ix2 e k :=
  funext fun a => Fin.ext (by match a with | ⟨0, _⟩ => rfl | ⟨1, _⟩ => rfl)
theorem ridx66 (e : Fin 1600000) (j : Fin 64) (k : Fin 64) : ridx_main_v66 (ix2 e j) k = ix2 k j :=
  funext fun a => Fin.ext (by match a with | ⟨0, _⟩ => rfl | ⟨1, _⟩ => rfl)
theorem lidx72 (e : Fin 1600000) (j : Fin 64) (k : Fin 133) : lidx_main_v72 (ix2 e j) k = ix2 e k :=
  funext fun a => Fin.ext (by match a with | ⟨0, _⟩ => rfl | ⟨1, _⟩ => rfl)
theorem ridx72 (e : Fin 1600000) (j : Fin 64) (k : Fin 133) : ridx_main_v72 (ix2 e j) k = ix2 k j :=
  funext fun a => Fin.ext (by match a with | ⟨0, _⟩ => rfl | ⟨1, _⟩ => rfl)
theorem lidx77 (e : Fin 1600000)  (k : Fin 64) : lidx_main_v77 (ix2 e (0 : Fin 1)) k = ix2 e k :=
  funext fun a => Fin.ext (by match a with | ⟨0, _⟩ => rfl | ⟨1, _⟩ => rfl)
theorem ridx77 (e : Fin 1600000)  (k : Fin 64) : ridx_main_v77 (ix2 e (0 : Fin 1)) k = ix2 k (0 : Fin 1) :=
  funext fun a => Fin.ext (by match a with | ⟨0, _⟩ => rfl | ⟨1, _⟩ => rfl)
theorem lidx89 (e : Fin 1600000) (j : Fin 64) (k : Fin 133) : lidx_main_v89 (ix2 e j) k = ix2 e k :=
  funext fun a => Fin.ext (by match a with | ⟨0, _⟩ => rfl | ⟨1, _⟩ => rfl)
theorem ridx89 (e : Fin 1600000) (j : Fin 64) (k : Fin 133) : ridx_main_v89 (ix2 e j) k = ix2 k j :=
  funext fun a => Fin.ext (by match a with | ⟨0, _⟩ => rfl | ⟨1, _⟩ => rfl)
theorem lidx94 (e : Fin 1600000)  (k : Fin 64) : lidx_main_v94 (ix2 e (0 : Fin 1)) k = ix2 e k :=
  funext fun a => Fin.ext (by match a with | ⟨0, _⟩ => rfl | ⟨1, _⟩ => rfl)
theorem ridx94 (e : Fin 1600000)  (k : Fin 64) : ridx_main_v94 (ix2 e (0 : Fin 1)) k = ix2 k (0 : Fin 1) :=
  funext fun a => Fin.ext (by match a with | ⟨0, _⟩ => rfl | ⟨1, _⟩ => rfl)
theorem idx87 (e : Fin 1600000) (k : Fin 133) : idx_main_v87 (ix2 e k) = ix2 e (0 : Fin 1) :=
  funext fun a => Fin.ext (by match a with | ⟨0, _⟩ => rfl | ⟨1, _⟩ => rfl)

/-! ## Broadcast biases at an index -/

theorem bias56 (e : Fin 1600000) (j : Fin 64) : val_main_v56 (F := Ideal) x11 (ix2 e j) = x11 (ix1 j) := by
  rw [val_main_v56_apply, val_main_v55_apply]
  exact congrArg x11 (funext fun a => Fin.ext (by match a with | ⟨0, _⟩ => rfl))
theorem bias68 (e : Fin 1600000) (j : Fin 64) : val_main_v68 (F := Ideal) x11 (ix2 e j) = x11 (ix1 j) := by
  rw [val_main_v68_apply, val_main_v67_apply]
  exact congrArg x11 (funext fun a => Fin.ext (by match a with | ⟨0, _⟩ => rfl))
theorem bias74 (e : Fin 1600000) (j : Fin 64) : val_main_v74 (F := Ideal) x13 (ix2 e j) = x13 (ix1 j) := by
  rw [val_main_v74_apply, val_main_v73_apply]
  exact congrArg x13 (funext fun a => Fin.ext (by match a with | ⟨0, _⟩ => rfl))
theorem bias91 (e : Fin 1600000) (j : Fin 64) : val_main_v91 (F := Ideal) x17 (ix2 e j) = x17 (ix1 j) := by
  rw [val_main_v91_apply, val_main_v90_apply]
  exact congrArg x17 (funext fun a => Fin.ext (by match a with | ⟨0, _⟩ => rfl))
theorem bias79 (e : Fin 1600000) : val_main_v79 (F := Ideal) x15 (ix2 e (0 : Fin 1)) = x15 (ix1 (0 : Fin 1)) := by
  rw [val_main_v79_apply, val_main_v78_apply]
  exact congrArg x15 (funext fun a => Fin.ext (by match a with | ⟨0, _⟩ => rfl))
theorem bias96 (e : Fin 1600000) : val_main_v96 (F := Ideal) x19 (ix2 e (0 : Fin 1)) = x19 (ix1 (0 : Fin 1)) := by
  rw [val_main_v96_apply, val_main_v95_apply]
  exact congrArg x19 (funext fun a => Fin.ext (by match a with | ⟨0, _⟩ => rfl))

/-! ## The two projected rows -/

/-- The gathered hidden row of the edge's source node is the hidden row of that node. -/
theorem gather_src (e : Fin 1600000) (k : Fin 64) :
    val_main_v53 (F := Ideal) x0 x2 x3 x4 x5 x6 x7 x8 x9 (ix2 e k) = hid x0 x2 x3 x4 x5 x6 x7 x8 x9 (ix2 (srcRow x2 e) k) := by
  unfold val_main_v53
  exact Cert.RowGather.gather_row_apply (N := 100000) (C := 64) (E := 1600000) (by norm_num)
    gather_S100000x64_S1600000x1_S1600000x64_1_0_n_n_0_1_164.wf _ _ e k

/-- The projected row of the edge's source node: `max (h · Wnp + bnp) 0` of that node's hidden row `h`. -/
theorem hsrc_at (e : Fin 1600000) (j : Fin 64) :
    val_main_v58 (F := Ideal) x0 x2 x3 x4 x5 x6 x7 x8 x9 x10 x11 (ix2 e j)
      = proj (fun k j => x10 (ix2 k j)) (fun j => x11 (ix1 j)) (fun k => hid x0 x2 x3 x4 x5 x6 x7 x8 x9 (ix2 (srcRow x2 e) k)) j := by
  rw [val_main_v58_apply, Ideal.maximumf_def, val_main_v57_apply, Ideal.addf_def, val_main_v54_apply, bias56,
    val_main_call2_v0_apply, val_main_call2_cst_apply, Ideal.ofBits_def]
  unfold proj affine
  refine congrArg (fun s => max (s + x11 (ix1 j)) zero) (Finset.sum_congr rfl fun k _ => ?_)
  rw [lidx54, ridx54, gather_src]

/-- The gathered hidden row of the edge's destination node is the hidden row of that node. -/
theorem gather_dst (e : Fin 1600000) (k : Fin 64) :
    val_main_v65 (F := Ideal) x0 x2 x3 x4 x5 x6 x7 x8 x9 (ix2 e k) = hid x0 x2 x3 x4 x5 x6 x7 x8 x9 (ix2 (dstRow x3 e) k) := by
  unfold val_main_v65
  exact Cert.RowGather.gather_row_apply (N := 100000) (C := 64) (E := 1600000) (by norm_num)
    gather_S100000x64_S1600000x1_S1600000x64_1_0_n_n_0_1_164.wf _ _ e k

/-- The projected row of the edge's destination node: `max (h · Wnp + bnp) 0` of that node's hidden row `h`. -/
theorem hdst_at (e : Fin 1600000) (j : Fin 64) :
    val_main_v70 (F := Ideal) x0 x2 x3 x4 x5 x6 x7 x8 x9 x10 x11 (ix2 e j)
      = proj (fun k j => x10 (ix2 k j)) (fun j => x11 (ix1 j)) (fun k => hid x0 x2 x3 x4 x5 x6 x7 x8 x9 (ix2 (dstRow x3 e) k)) j := by
  rw [val_main_v70_apply, Ideal.maximumf_def, val_main_v69_apply, Ideal.addf_def, val_main_v66_apply, bias68,
    val_main_call3_v0_apply, val_main_call3_cst_apply, Ideal.ofBits_def]
  unfold proj affine
  refine congrArg (fun s => max (s + x11 (ix1 j)) zero) (Finset.sum_congr rfl fun k _ => ?_)
  rw [lidx66, ridx66, gather_dst]

/-! ## The 133 features -/

/-- Three pieces of widths 64, 64 and 5 laid end to end along the row: row `e` of the result is `feat` of row `e` of
    each piece. -/
theorem concat_at (a b : S1600000x64.Idx → EReal) (c : S1600000x5.Idx → EReal)
    (h : Shape.Concatenates [S1600000x64, S1600000x64, S1600000x5] S1600000x133 1) (e : Fin 1600000) (k : Fin 133) :
    concatenate S1600000x133 1 [⟨S1600000x64, a⟩, ⟨S1600000x64, b⟩, ⟨S1600000x5, c⟩] h (ix2 e k)
      = feat (fun j => a (ix2 e j)) (fun j => b (ix2 e j)) (fun j => c (ix2 e j)) k := by
  by_cases h1 : k.val < 64
  · rw [feat_src _ _ _ k h1]
    exact concatenate_apply_piece (t := S1600000x133) (1 : Fin 2) [⟨S1600000x64, a⟩, ⟨S1600000x64, b⟩, ⟨S1600000x5, c⟩] h (ix2 e k) 0 (by show 0 < 3; omega) S1600000x64 a rfl rfl 0 rfl (ix2 e ⟨k.val, h1⟩)
      (fun d hd => by
        match d with
        | ⟨0, _⟩ => rfl
        | ⟨1, _⟩ => exact absurd rfl hd)
      (by show 0 + k.val = k.val; omega)
  · by_cases h2 : k.val < 128
    · rw [feat_dst _ _ _ k h1 h2]
      exact concatenate_apply_piece (t := S1600000x133) (1 : Fin 2) [⟨S1600000x64, a⟩, ⟨S1600000x64, b⟩, ⟨S1600000x5, c⟩] h (ix2 e k) 1 (by show 1 < 3; omega) S1600000x64 b rfl rfl 64 rfl
        (ix2 e ⟨k.val - 64, by omega⟩)
        (fun d hd => by
          match d with
          | ⟨0, _⟩ => rfl
          | ⟨1, _⟩ => exact absurd rfl hd)
        (by show 64 + (k.val - 64) = k.val; omega)
    · rw [feat_edge _ _ _ k h1 h2]
      exact concatenate_apply_piece (t := S1600000x133) (1 : Fin 2) [⟨S1600000x64, a⟩, ⟨S1600000x64, b⟩, ⟨S1600000x5, c⟩] h (ix2 e k) 2 (by show 2 < 3; omega) S1600000x5 c rfl rfl 128 rfl
        (ix2 e ⟨k.val - 128, by have := k.isLt; omega⟩)
        (fun d hd => by
          match d with
          | ⟨0, _⟩ => rfl
          | ⟨1, _⟩ => exact absurd rfl hd)
        (by show 128 + (k.val - 128) = k.val; omega)

/-- Row `e` of the concatenation: the source node's projected row, the destination node's, the edge's own features. -/
theorem ef_at (e : Fin 1600000) (k : Fin 133) :
    val_main_v71 (F := Ideal) x0 x1 x2 x3 x4 x5 x6 x7 x8 x9 x10 x11 (ix2 e k)
      = feat (proj (fun k j => x10 (ix2 k j)) (fun j => x11 (ix1 j)) (fun k => hid x0 x2 x3 x4 x5 x6 x7 x8 x9 (ix2 (srcRow x2 e) k)))
          (proj (fun k j => x10 (ix2 k j)) (fun j => x11 (ix1 j)) (fun k => hid x0 x2 x3 x4 x5 x6 x7 x8 x9 (ix2 (dstRow x3 e) k)))
          (fun k => x1 (ix2 e k)) k := by
  have hs : (fun j : Fin 64 => val_main_v58 (F := Ideal) x0 x2 x3 x4 x5 x6 x7 x8 x9 x10 x11 (ix2 e j))
      = proj (fun k j => x10 (ix2 k j)) (fun j => x11 (ix1 j)) (fun k => hid x0 x2 x3 x4 x5 x6 x7 x8 x9 (ix2 (srcRow x2 e) k)) := funext fun j => hsrc_at x0 x2 x3 x4 x5 x6 x7 x8 x9 x10 x11 e j
  have hd : (fun j : Fin 64 => val_main_v70 (F := Ideal) x0 x2 x3 x4 x5 x6 x7 x8 x9 x10 x11 (ix2 e j))
      = proj (fun k j => x10 (ix2 k j)) (fun j => x11 (ix1 j)) (fun k => hid x0 x2 x3 x4 x5 x6 x7 x8 x9 (ix2 (dstRow x3 e) k)) := funext fun j => hdst_at x0 x2 x3 x4 x5 x6 x7 x8 x9 x10 x11 e j
  unfold val_main_v71
  refine (concat_at _ _ _ _ e k).trans ?_
  rw [hs, hd]

/-! ## The two heads on a row of features

  From here on `f` is row `e` of the concatenation, whatever it is. -/

/-- The first head's product: `Σ_k f_k · We1_kj`. -/
theorem mm72_at (e : Fin 1600000) (f : Fin 133 → EReal)
    (hf : ∀ k : Fin 133, val_main_v71 (F := Ideal) x0 x1 x2 x3 x4 x5 x6 x7 x8 x9 x10 x11 (ix2 e k) = f k) (j : Fin 64) :
    val_main_v72 (F := Ideal) x0 x1 x2 x3 x4 x5 x6 x7 x8 x9 x10 x11 x12 (ix2 e j) = ∑ k : Fin 133, f k * x12 (ix2 k j) := by
  refine (val_main_v72_apply x0 x1 x2 x3 x4 x5 x6 x7 x8 x9 x10 x11 x12 (ix2 e j)).trans (Finset.sum_congr rfl fun k _ => ?_)
  rw [lidx72, ridx72, hf]

/-- The first head's hidden unit `j`: `tanh (Σ_k f_k · We1_kj + be1_j)`. -/
theorem hid1_at (e : Fin 1600000) (f : Fin 133 → EReal)
    (hf : ∀ k : Fin 133, val_main_v71 (F := Ideal) x0 x1 x2 x3 x4 x5 x6 x7 x8 x9 x10 x11 (ix2 e k) = f k) (j : Fin 64) :
    val_main_v76 (F := Ideal) x0 x1 x2 x3 x4 x5 x6 x7 x8 x9 x10 x11 x12 x13 (ix2 e j) = Ideal.tanh (affine (fun k j => x12 (ix2 k j)) (fun j => x13 (ix1 j)) f j) := by
  rw [val_main_v76_apply, Ideal.hostUnary_tanh_def, val_main_v75_apply, Ideal.addf_def, mm72_at x0 x1 x2 x3 x4 x5 x6 x7 x8 x9 x10 x11 x12 e f hf j, bias74]
  rfl

/-- The first head's logit: `Σ_j tanh (…)_j · we2_j + be2`. -/
theorem logit_at (e : Fin 1600000) (f : Fin 133 → EReal)
    (hf : ∀ k : Fin 133, val_main_v71 (F := Ideal) x0 x1 x2 x3 x4 x5 x6 x7 x8 x9 x10 x11 (ix2 e k) = f k) :
    val_main_v80 (F := Ideal) x0 x1 x2 x3 x4 x5 x6 x7 x8 x9 x10 x11 x12 x13 x14 x15 (ix2 e (0 : Fin 1))
      = (∑ j : Fin 64, Ideal.tanh (affine (fun k j => x12 (ix2 k j)) (fun j => x13 (ix1 j)) f j) * x14 (ix2 j (0 : Fin 1))) + x15 (ix1 (0 : Fin 1)) := by
  rw [val_main_v80_apply, Ideal.addf_def, val_main_v77_apply, bias79]
  refine congrArg (fun s => s + x15 (ix1 (0 : Fin 1))) (Finset.sum_congr rfl fun j _ => ?_)
  rw [lidx77, ridx77, hid1_at x0 x1 x2 x3 x4 x5 x6 x7 x8 x9 x10 x11 x12 x13 e f hf j]

/-- The gate: the reference spells the logistic as `1 / (1 + exp (−x))` with the constant one as an f32 word; that
    expression is `Ideal.logistic x` by definition. -/
theorem gate_at (e : Fin 1600000) (f : Fin 133 → EReal)
    (hf : ∀ k : Fin 133, val_main_v71 (F := Ideal) x0 x1 x2 x3 x4 x5 x6 x7 x8 x9 x10 x11 (ix2 e k) = f k) :
    val_main_v86 (F := Ideal) x0 x1 x2 x3 x4 x5 x6 x7 x8 x9 x10 x11 x12 x13 x14 x15 (ix2 e (0 : Fin 1)) = gate (fun k j => x12 (ix2 k j)) (fun j => x13 (ix1 j)) (fun j => x14 (ix2 j (0 : Fin 1))) (x15 (ix1 (0 : Fin 1))) f := by
  rw [val_main_v86_apply, val_main_v85_apply, val_main_cst_13_apply, val_main_v84_apply, val_main_v83_apply, val_main_cst_12_apply,
    val_main_v82_apply, val_main_v81_apply, logit_at x0 x1 x2 x3 x4 x5 x6 x7 x8 x9 x10 x11 x12 x13 x14 x15 e f hf,
    Ideal.hostDivf_def, Ideal.addf_def, Ideal.hostUnary_exp_def, Ideal.hostNegf_def, Ideal.negf_def, Ideal.ofBits_def,
    Ideal.ofBits_one_f32]
  rfl

/-- The gated features: `f_k · gate`, the gate broadcast along the row. -/
theorem gated_at (e : Fin 1600000) (f : Fin 133 → EReal)
    (hf : ∀ k : Fin 133, val_main_v71 (F := Ideal) x0 x1 x2 x3 x4 x5 x6 x7 x8 x9 x10 x11 (ix2 e k) = f k) (k : Fin 133) :
    val_main_v88 (F := Ideal) x0 x1 x2 x3 x4 x5 x6 x7 x8 x9 x10 x11 x12 x13 x14 x15 (ix2 e k) = f k * gate (fun k j => x12 (ix2 k j)) (fun j => x13 (ix1 j)) (fun j => x14 (ix2 j (0 : Fin 1))) (x15 (ix1 (0 : Fin 1))) f := by
  rw [val_main_v88_apply, Ideal.mulf_def, hf, val_main_v87_apply, idx87, gate_at x0 x1 x2 x3 x4 x5 x6 x7 x8 x9 x10 x11 x12 x13 x14 x15 e f hf]

/-- The second head's product on the gated features. -/
theorem mm89_at (e : Fin 1600000) (f : Fin 133 → EReal)
    (hf : ∀ k : Fin 133, val_main_v71 (F := Ideal) x0 x1 x2 x3 x4 x5 x6 x7 x8 x9 x10 x11 (ix2 e k) = f k) (j : Fin 64) :
    val_main_v89 (F := Ideal) x0 x1 x2 x3 x4 x5 x6 x7 x8 x9 x10 x11 x12 x13 x14 x15 x16 (ix2 e j) = ∑ k : Fin 133, (f k * gate (fun k j => x12 (ix2 k j)) (fun j => x13 (ix1 j)) (fun j => x14 (ix2 j (0 : Fin 1))) (x15 (ix1 (0 : Fin 1))) f) * x16 (ix2 k j) := by
  refine (val_main_v89_apply x0 x1 x2 x3 x4 x5 x6 x7 x8 x9 x10 x11 x12 x13 x14 x15 x16 (ix2 e j)).trans (Finset.sum_congr rfl fun k _ => ?_)
  rw [lidx89, ridx89, gated_at x0 x1 x2 x3 x4 x5 x6 x7 x8 x9 x10 x11 x12 x13 x14 x15 e f hf k]

/-- The second head's hidden unit `j`: `max (Σ_k (f_k · gate) · Wl1_kj + bl1_j) 0`. -/
theorem hid2_at (e : Fin 1600000) (f : Fin 133 → EReal)
    (hf : ∀ k : Fin 133, val_main_v71 (F := Ideal) x0 x1 x2 x3 x4 x5 x6 x7 x8 x9 x10 x11 (ix2 e k) = f k) (j : Fin 64) :
    val_main_v93 (F := Ideal) x0 x1 x2 x3 x4 x5 x6 x7 x8 x9 x10 x11 x12 x13 x14 x15 x16 x17 (ix2 e j)
      = max (affine (fun k j => x16 (ix2 k j)) (fun j => x17 (ix1 j)) (fun k => f k * gate (fun k j => x12 (ix2 k j)) (fun j => x13 (ix1 j)) (fun j => x14 (ix2 j (0 : Fin 1))) (x15 (ix1 (0 : Fin 1))) f) j) zero := by
  rw [val_main_v93_apply, Ideal.maximumf_def, val_main_v92_apply, Ideal.addf_def, mm89_at x0 x1 x2 x3 x4 x5 x6 x7 x8 x9 x10 x11 x12 x13 x14 x15 x16 e f hf j, bias91,
    val_main_call4_v0_apply, val_main_call4_cst_apply, Ideal.ofBits_def]
  rfl

/-- The result at `(e, 0)` is `edgeOut` of row `e` of the concatenation. -/
theorem out_at (e : Fin 1600000) (f : Fin 133 → EReal)
    (hf : ∀ k : Fin 133, val_main_v71 (F := Ideal) x0 x1 x2 x3 x4 x5 x6 x7 x8 x9 x10 x11 (ix2 e k) = f k) :
    val_main_v97 (F := Ideal) x0 x1 x2 x3 x4 x5 x6 x7 x8 x9 x10 x11 x12 x13 x14 x15 x16 x17 x18 x19 (ix2 e (0 : Fin 1))
      = edgeOut (fun k j => x12 (ix2 k j)) (fun j => x13 (ix1 j)) (fun j => x14 (ix2 j (0 : Fin 1))) (x15 (ix1 (0 : Fin 1)))
          (fun k j => x16 (ix2 k j)) (fun j => x17 (ix1 j)) (fun j => x18 (ix2 j (0 : Fin 1))) (x19 (ix1 (0 : Fin 1))) f := by
  rw [val_main_v97_apply, Ideal.addf_def, val_main_v94_apply, bias96]
  unfold edgeOut
  refine congrArg (fun s => s + x19 (ix1 (0 : Fin 1))) (Finset.sum_congr rfl fun j _ => ?_)
  rw [lidx94, ridx94, hid2_at x0 x1 x2 x3 x4 x5 x6 x7 x8 x9 x10 x11 x12 x13 x14 x15 x16 x17 e f hf j]

/-- **The reference at one edge**: element `(e, 0)` of the result is `edgeOut` of the edge's 133 features — the projected
    hidden rows of its source and destination nodes and its own five features. -/
theorem ref_at (e : Fin 1600000) :
    val_main_v97 (F := Ideal) x0 x1 x2 x3 x4 x5 x6 x7 x8 x9 x10 x11 x12 x13 x14 x15 x16 x17 x18 x19 (ix2 e (0 : Fin 1))
      = edgeOut (fun k j => x12 (ix2 k j)) (fun j => x13 (ix1 j)) (fun j => x14 (ix2 j (0 : Fin 1))) (x15 (ix1 (0 : Fin 1)))
          (fun k j => x16 (ix2 k j)) (fun j => x17 (ix1 j)) (fun j => x18 (ix2 j (0 : Fin 1))) (x19 (ix1 (0 : Fin 1)))
          (feat
            (proj (fun k j => x10 (ix2 k j)) (fun j => x11 (ix1 j)) (fun k => hid x0 x2 x3 x4 x5 x6 x7 x8 x9 (ix2 (srcRow x2 e) k)))
            (proj (fun k j => x10 (ix2 k j)) (fun j => x11 (ix1 j)) (fun k => hid x0 x2 x3 x4 x5 x6 x7 x8 x9 (ix2 (dstRow x3 e) k)))
            (fun k => x1 (ix2 e k))) :=
  out_at x0 x1 x2 x3 x4 x5 x6 x7 x8 x9 x10 x11 x12 x13 x14 x15 x16 x17 x18 x19 e _ (fun k => ef_at x0 x1 x2 x3 x4 x5 x6 x7 x8 x9 x10 x11 e k)

end Cert.ReferenceIdeal.RefRow

end
-- ==== Proof.KernelHost.lean ====
/-
  The kernel's windows, from its host operations after the hidden rows.

  After the two graph layers (`KernelPrefix`), the kernel's host program projects the hidden rows ONCE per node,
  `hnp = max (h · Wnp + bnp) 0` on `[100000, 64]`, narrows them (no change on the extended reals), and gathers rows of
  `hnp` by `src` and by `dst`; the weights are narrowed or reshaped from `[64, 1]` to `[64]`. A row gather takes whole
  rows, at a row that depends on the index array alone (`RowGather`), so row `e` of the gathered array is the projection
  of the hidden row of node `src e`: the same thing the reference computes by gathering hidden rows first and projecting
  each edge's row afterwards. With the kernel body's row value (`KernelRow`, `KernelBlocks`) this makes each row of the
  kernel's result the reference's result at that row.
-/
import proofs.«177754_j68066641707575_2_alg».proof.Proof.KernelPrefix
import proofs.«177754_j68066641707575_2_alg».proof.Proof.KernelBlocks
import proofs.«177754_j68066641707575_2_alg».proof.Proof.RefRow
import proofs.«177754_j68066641707575_2_alg».proof.Proof.RowGather
import Idealize.ShloMosaic.Lib.IdealHost

set_option maxRecDepth 16384

noncomputable section

namespace Cert.KernelIdeal.HostSide

open Cert.KernelIdeal Cert.KernelIdeal.Gen Idealize.ShloMosaic Idealize.ShloMosaic.TcCoe Idealize.ShloMosaic.StableHlo
open Idealize.SL.Sem Idealize.ShloMosaic.ValueIdx Cert.EdgeSpec

variable (m : (ℓ : Loc nD τ sig) → Buf (Elt Ideal) ℓ)

/-! ## The arguments are still as launched where the late operations read them -/

set_option maxHeartbeats 2000000 in
theorem Vp_arg2 (c : Dev nD) : Vp m c (Proc.devRef .tc main_arg2) = m ((c : Thread nD τ).loc main_arg2) := by
  have h := V_eq m c main_arg2
  rw [V_main_arg2] at h
  rw [h]
  simp only [hostOps0_4, hostOps0_5, hostOps0_6]
  after_results_simp

set_option maxHeartbeats 2000000 in
theorem Vp_arg3 (c : Dev nD) : Vp m c (Proc.devRef .tc main_arg3) = m ((c : Thread nD τ).loc main_arg3) := by
  have h := V_eq m c main_arg3
  rw [V_main_arg3] at h
  rw [h]
  simp only [hostOps0_4, hostOps0_5, hostOps0_6]
  after_results_simp

set_option maxHeartbeats 2000000 in
theorem Vp_arg10 (c : Dev nD) : Vp m c (Proc.devRef .tc main_arg10) = m ((c : Thread nD τ).loc main_arg10) := by
  have h := V_eq m c main_arg10
  rw [V_main_arg10] at h
  rw [h]
  simp only [hostOps0_4, hostOps0_5, hostOps0_6]
  after_results_simp

set_option maxHeartbeats 2000000 in
theorem Vp_arg11 (c : Dev nD) : Vp m c (Proc.devRef .tc main_arg11) = m ((c : Thread nD τ).loc main_arg11) := by
  have h := V_eq m c main_arg11
  rw [V_main_arg11] at h
  rw [h]
  simp only [hostOps0_4, hostOps0_5, hostOps0_6]
  after_results_simp

set_option maxHeartbeats 2000000 in
theorem Vp_arg12 (c : Dev nD) : Vp m c (Proc.devRef .tc main_arg12) = m ((c : Thread nD τ).loc main_arg12) := by
  have h := V_eq m c main_arg12
  rw [V_main_arg12] at h
  rw [h]
  simp only [hostOps0_4, hostOps0_5, hostOps0_6]
  after_results_simp

set_option maxHeartbeats 2000000 in
theorem Vp_arg14 (c : Dev nD) : Vp m c (Proc.devRef .tc main_arg14) = m ((c : Thread nD τ).loc main_arg14) := by
  have h := V_eq m c main_arg14
  rw [V_main_arg14] at h
  rw [h]
  simp only [hostOps0_4, hostOps0_5, hostOps0_6]
  after_results_simp

set_option maxHeartbeats 2000000 in
theorem Vp_arg16 (c : Dev nD) : Vp m c (Proc.devRef .tc main_arg16) = m ((c : Thread nD τ).loc main_arg16) := by
  have h := V_eq m c main_arg16
  rw [V_main_arg16] at h
  rw [h]
  simp only [hostOps0_4, hostOps0_5, hostOps0_6]
  after_results_simp

set_option maxHeartbeats 2000000 in
theorem Vp_arg18 (c : Dev nD) : Vp m c (Proc.devRef .tc main_arg18) = m ((c : Thread nD τ).loc main_arg18) := by
  have h := V_eq m c main_arg18
  rw [V_main_arg18] at h
  rw [h]
  simp only [hostOps0_4, hostOps0_5, hostOps0_6]
  after_results_simp

/-! ## The node projection, once per node -/

/-- The projected hidden rows as the host operations spell them. -/
def hnp (H : FVec Ideal S100000x64 .f32) (W : FVec Ideal S64x64 .f32) (b : FVec Ideal S64 .f32) : FVec Ideal S100000x64 .f32 :=
  maximumf (addf (Host.dotGeneral dot_S100000x64_S64x64_S100000x64_1_0_0_1_n_n none H W)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The dimension numbers of the node projection: `[100000, 64] × [64, 64]`, contracting the hidden axis. -/
abbrev DP : DotDims S100000x64 S64x64 S100000x64 := dot_S100000x64_S64x64_S100000x64_1_0_0_1_n_n

theorem dp_lhs0 (i : S100000x64.Idx) (q : DP.contr.Idx) : (DP.lhsIdx i q 0).val = (i 0).val := by
  unfold DotDims.lhsIdx
  rw [dif_neg (show ¬(0 : Fin S100000x64.rank) ∈ DP.lhsBatch by decide), dif_pos (show (0 : Fin S100000x64.rank) ∈ DP.lhsNonContracting by decide)]
  rfl
theorem dp_lhs1 (i : S100000x64.Idx) (q : DP.contr.Idx) : (DP.lhsIdx i q 1).val = (q ⟨0, by decide⟩).val :=
  DP.lhsIdx_val_of_single rfl i q
theorem dp_rhs0 (i : S100000x64.Idx) (q : DP.contr.Idx) : (DP.rhsIdx i q 0).val = (q ⟨0, by decide⟩).val :=
  DP.rhsIdx_val_of_single rfl i q
theorem dp_rhs1 (i : S100000x64.Idx) (q : DP.contr.Idx) : (DP.rhsIdx i q 1).val = (i 1).val := by
  unfold DotDims.rhsIdx
  rw [dif_neg (show ¬(1 : Fin S64x64.rank) ∈ DP.rhsBatch by decide), dif_pos (show (1 : Fin S64x64.rank) ∈ DP.rhsNonContracting by decide)]
  rfl

/-- The host's product at `(n, j)`: the sum over the hidden axis of row `n` against column `j`. -/
theorem dot_row (H : FVec Ideal S100000x64 .f32) (W : FVec Ideal S64x64 .f32) (n : Fin 100000) (j : Fin 64) :
    Host.dotGeneral DP none H W (ix2 n j) = ∑ k : Fin 64, H (ix2 n k) * W (ix2 k j) := by
  simp only [Host.dotGeneral]
  rw [Ideal.dotGeneral_apply, ← Equiv.sum_comp (contrEquiv1 DP 64 rfl rfl).symm]
  refine Finset.sum_congr rfl fun k _ => ?_
  have hk := contrEquiv1_symm_val DP 64 rfl rfl k
  have el : DP.lhsIdx (ix2 n j) ((contrEquiv1 DP 64 rfl rfl).symm k) = ix2 n k := funext fun a => Fin.ext (by
    match a with
    | ⟨0, _⟩ => exact dp_lhs0 _ _
    | ⟨1, _⟩ => exact (dp_lhs1 _ _).trans hk)
  have er : DP.rhsIdx (ix2 n j) ((contrEquiv1 DP 64 rfl rfl).symm k) = ix2 k j := funext fun a => Fin.ext (by
    match a with
    | ⟨0, _⟩ => exact (dp_rhs0 _ _).trans hk
    | ⟨1, _⟩ => exact dp_rhs1 _ _)
  rw [el, er]

/-- The bias laid as one row and broadcast over the nodes reads, at `(n, j)`, the bias at `j`. -/
theorem bias_nodes (b : FVec Ideal S64 .f32) (n : Fin 100000) (j : Fin 64) :
    broadcastInDim S100000x64 ![0, 1] bcast_S1x64_S100000x64_0_1 (broadcastInDim S1x64 ![1] bcast_S64_S1x64_1 b) (ix2 n j)
      = b (ix1 j) := by
  refine (broadcastInDim_apply _ _ _ (ix2 n j) (ix2 (0 : Fin 1) j) (fun a => ?_)).trans ?_
  · match a with
    | ⟨0, _⟩ => rfl
    | ⟨1, _⟩ =>
      show j.val = if (64 : Nat) = 1 then 0 else j.val
      rw [if_neg (by decide)]
  · refine broadcastInDim_apply _ _ _ (ix2 (0 : Fin 1) j) (ix1 j) (fun a => ?_)
    match a with
    | ⟨0, _⟩ =>
      show j.val = if (64 : Nat) = 1 then 0 else j.val
      rw [if_neg (by decide)]

/-- The projected hidden rows at `(n, j)`: the projection of node `n`'s hidden row. -/
theorem hnp_at (H : FVec Ideal S100000x64 .f32) (W : FVec Ideal S64x64 .f32) (b : FVec Ideal S64 .f32) (n : Fin 100000) (j : Fin 64) :
    hnp H W b (ix2 n j) = proj (fun k j => W (ix2 k j)) (fun j => b (ix1 j)) (fun k => H (ix2 n k)) j := by
  unfold hnp proj affine
  rw [maximumf_apply, addf_apply, dot_row, bias_nodes]
  rfl

/-! ## The windows' arrays -/

set_option maxHeartbeats 4000000 in
/-- Rows of the projected hidden rows gathered by `src`. -/
theorem v59_eq (c : Dev nD) : (V m c main_v59 : S1600000x64.Idx → EReal)
    = Host.gather gather_S100000x64_S1600000x1_S1600000x64_1_0_n_n_0_1_164
        (truncf .bf16 (hnp (Vp m c (Proc.devRef .tc main_v46)) (Vp m c (Proc.devRef .tc main_arg10)) (Vp m c (Proc.devRef .tc main_arg11))) bitsLt_bf16_f32)
        (Cert.ReferenceIdeal.Read.val_main_v52 (F := Ideal) (Vp m c (Proc.devRef .tc main_arg2))) := by
  rw [V_eq]
  simp only [hostOps0_4, hostOps0_5, hostOps0_6]
  after_results_simp
  rfl

set_option maxHeartbeats 4000000 in
/-- Rows of the projected hidden rows gathered by `dst`. -/
theorem v66_eq (c : Dev nD) : (V m c main_v66 : S1600000x64.Idx → EReal)
    = Host.gather gather_S100000x64_S1600000x1_S1600000x64_1_0_n_n_0_1_164
        (truncf .bf16 (hnp (Vp m c (Proc.devRef .tc main_v46)) (Vp m c (Proc.devRef .tc main_arg10)) (Vp m c (Proc.devRef .tc main_arg11))) bitsLt_bf16_f32)
        (Cert.ReferenceIdeal.Read.val_main_v64 (F := Ideal) (Vp m c (Proc.devRef .tc main_arg3))) := by
  rw [V_eq]
  simp only [hostOps0_4, hostOps0_5, hostOps0_6]
  after_results_simp
  rfl

set_option maxHeartbeats 2000000 in
/-- The first head's weights, narrowed: on the extended reals the same numbers. -/
theorem v67_eq (c : Dev nD) : @Eq (S133x64.Idx → EReal) (V m c main_v67) (Vp m c (Proc.devRef .tc main_arg12)) := by
  rw [V_eq]
  simp only [hostOps0_4, hostOps0_5, hostOps0_6]
  after_results_simp
  rfl

set_option maxHeartbeats 2000000 in
/-- The second head's weights, narrowed: the same numbers. -/
theorem v68_eq (c : Dev nD) : @Eq (S133x64.Idx → EReal) (V m c main_v68) (Vp m c (Proc.devRef .tc main_arg16)) := by
  rw [V_eq]
  simp only [hostOps0_4, hostOps0_5, hostOps0_6]
  after_results_simp
  rfl

set_option maxHeartbeats 2000000 in
theorem v69_eq (c : Dev nD) : (V m c main_v69 : S64.Idx → EReal)
    = shapeCast S64 (Vp m c (Proc.devRef .tc main_arg14) : FVec Ideal S64x1 .f32) shapeCasts_S64x1_S64 := by
  rw [V_eq]
  simp only [hostOps0_4, hostOps0_5, hostOps0_6]
  after_results_simp
  rfl

set_option maxHeartbeats 2000000 in
theorem v70_eq (c : Dev nD) : (V m c main_v70 : S64.Idx → EReal)
    = shapeCast S64 (Vp m c (Proc.devRef .tc main_arg18) : FVec Ideal S64x1 .f32) shapeCasts_S64x1_S64 := by
  rw [V_eq]
  simp only [hostOps0_4, hostOps0_5, hostOps0_6]
  after_results_simp
  rfl

/-! ## The windows' arrays at an index, in the arguments -/

/-- A `[64, 1]` column reshaped to `[64]` reads, at `j`, the column at `(j, 0)`. -/
theorem col_reshape (x : FVec Ideal S64x1 .f32) (j : Fin 64) :
    shapeCast S64 x shapeCasts_S64x1_S64 (ix1 j) = x (ix2 j (0 : Fin 1)) :=
  shapeCast_apply x _ _ _ (by
    rw [Shape.rowMajor_val_two, Shape.rowMajor_val_one]
    show j.val * 1 + 0 = j.val
    omega)

theorem w67_at (c : Dev nD) (k : Fin 133) (j : Fin 64) :
    (V m c main_v67 : S133x64.Idx → EReal) (ix2 k j) = m ((c : Thread nD τ).loc main_arg12) (ix2 k j) := by
  exact (congrFun (v67_eq m c) (ix2 k j)).trans (congrFun (Vp_arg12 m c) (ix2 k j))

theorem w68_at (c : Dev nD) (k : Fin 133) (j : Fin 64) :
    (V m c main_v68 : S133x64.Idx → EReal) (ix2 k j) = m ((c : Thread nD τ).loc main_arg16) (ix2 k j) := by
  exact (congrFun (v68_eq m c) (ix2 k j)).trans (congrFun (Vp_arg16 m c) (ix2 k j))

theorem w69_at (c : Dev nD) (j : Fin 64) :
    (V m c main_v69 : S64.Idx → EReal) (ix1 j) = m ((c : Thread nD τ).loc main_arg14) (ix2 j (0 : Fin 1)) := by
  rw [v69_eq, Vp_arg14]; exact col_reshape _ j

theorem w70_at (c : Dev nD) (j : Fin 64) :
    (V m c main_v70 : S64.Idx → EReal) (ix1 j) = m ((c : Thread nD τ).loc main_arg18) (ix2 j (0 : Fin 1)) := by
  rw [v70_eq, Vp_arg18]; exact col_reshape _ j

/-- Row `e` of the array gathered by `src`: the projection of the hidden row of the node `src` names. -/
theorem v59_at (c : Dev nD) (e : Fin 1600000) (j : Fin 64) :
    (V m c main_v59 : S1600000x64.Idx → EReal) (ix2 e j)
      = proj (fun k j => (m ((c : Thread nD τ).loc main_arg10)) (ix2 k j)) (fun j => (m ((c : Thread nD τ).loc main_arg11)) (ix1 j))
          (fun k => Cert.ReferenceIdeal.RefRow.hid (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
            (ix2 (Cert.ReferenceIdeal.RefRow.srcRow (m ((c : Thread nD τ).loc main_arg2)) e) k)) j := by
  rw [v59_eq, hidden_eq, Vp_arg10, Vp_arg11, Vp_arg2]
  refine (Cert.RowGather.gather_row_apply (N := 100000) (C := 64) (E := 1600000) (by norm_num)
    gather_S100000x64_S1600000x1_S1600000x64_1_0_n_n_0_1_164.wf _ _ e j).trans ?_
  exact hnp_at _ _ _ _ j

/-- Row `e` of the array gathered by `dst`. -/
theorem v66_at (c : Dev nD) (e : Fin 1600000) (j : Fin 64) :
    (V m c main_v66 : S1600000x64.Idx → EReal) (ix2 e j)
      = proj (fun k j => (m ((c : Thread nD τ).loc main_arg10)) (ix2 k j)) (fun j => (m ((c : Thread nD τ).loc main_arg11)) (ix1 j))
          (fun k => Cert.ReferenceIdeal.RefRow.hid (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
            (ix2 (Cert.ReferenceIdeal.RefRow.dstRow (m ((c : Thread nD τ).loc main_arg3)) e) k)) j := by
  rw [v66_eq, hidden_eq, Vp_arg10, Vp_arg11, Vp_arg3]
  refine (Cert.RowGather.gather_row_apply (N := 100000) (C := 64) (E := 1600000) (by norm_num)
    gather_S100000x64_S1600000x1_S1600000x64_1_0_n_n_0_1_164.wf _ _ e j).trans ?_
  exact hnp_at _ _ _ _ j

/-! ## Each row of the kernel's result is the reference's -/

/-- Equal weights and equal features give equal results. -/
theorem edgeOut_congr {We1 We1' : Fin 133 → Fin 64 → EReal} {be1 be1' we2 we2' : Fin 64 → EReal} {be2 be2' : EReal}
    {Wl1 Wl1' : Fin 133 → Fin 64 → EReal} {bl1 bl1' wl2 wl2' : Fin 64 → EReal} {bl2 bl2' : EReal} {f f' : Fin 133 → EReal}
    (h1 : We1 = We1') (h2 : be1 = be1') (h3 : we2 = we2') (h4 : be2 = be2') (h5 : Wl1 = Wl1') (h6 : bl1 = bl1')
    (h7 : wl2 = wl2') (h8 : bl2 = bl2') (h9 : f = f') :
    edgeOut We1 be1 we2 be2 Wl1 bl1 wl2 bl2 f = edgeOut We1' be1' we2' be2' Wl1' bl1' wl2' bl2' f' := by
  subst h1 h2 h3 h4 h5 h6 h7 h8 h9; rfl

/-- Equal pieces give equal features. -/
theorem feat_congr {hs hs' hd hd' : Fin 64 → EReal} {ef ef' : Fin 5 → EReal} (h1 : hs = hs') (h2 : hd = hd') (h3 : ef = ef') :
    feat hs hd ef = feat hs' hd' ef' := by
  subst h1 h2 h3; rfl

set_option maxHeartbeats 4000000 in
/-- Edge `e`'s value as the kernel computes it is the reference's result at `(e, 0)`, of the same arguments. -/
theorem kEdge_eq (c : Dev nD) (e : Fin 1600000) :
    Cert.KernelIdeal.Blocks.kEdge m c e
      = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (ix2 e (0 : Fin 1)) := by
  rw [Cert.ReferenceIdeal.RefRow.ref_at]
  unfold Cert.KernelIdeal.Blocks.kEdge
  exact edgeOut_congr (funext fun k => funext fun j => w67_at m c k j)
    (funext fun j => congrFun (V_main_arg13 m c) (ix1 j))
    (funext fun j => w69_at m c j)
    (congrFun (V_main_arg15 m c) (ix1 (0 : Fin 1)))
    (funext fun k => funext fun j => w68_at m c k j)
    (funext fun j => congrFun (V_main_arg17 m c) (ix1 j))
    (funext fun j => w70_at m c j)
    (congrFun (V_main_arg19 m c) (ix1 (0 : Fin 1)))
    (feat_congr (funext fun j => v59_at m c e j) (funext fun j => v66_at m c e j)
      (funext fun j => congrFun (V_main_arg1 m c) (ix2 e j)))

set_option maxHeartbeats 4000000 in
/-- The kernel's result array is the reference's result term of the same arguments. -/
theorem G_eq (c : Dev nD) :
    Cert.KernelIdeal.Blocks.G m c
      = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  funext i
  obtain ⟨e, u, rfl⟩ : ∃ (e : Fin 1600000) (u : Fin 1), i = ix2 e u := ⟨i 0, i 1, eq_ix2 i⟩
  obtain rfl : u = 0 := Subsingleton.elim _ _
  exact kEdge_eq m c e

end Cert.KernelIdeal.HostSide

end
-- ==== Proof.lean ====
/-
  An edge-scoring network on a graph of 100,000 nodes and 1,600,000 edges, as one fused kernel against its plain
  reference, on the extended reals.

  Both programs first run the same two graph layers, operation for operation, to hidden rows `h : [100000, 64]`. Then, for
  every edge `e` with end nodes `src e`, `dst e`:
    features  f   = [ P (h (src e)),  P (h (dst e)),  the edge's own 5 features ]      (133 numbers),
                    where P (x) = max (x · Wnp + bnp) 0 is the node projection;
    gate          = logistic (tanh (f · We1 + be1) · We2 + be2);
    result        = max ((f · gate) · Wl1 + bl1) 0 · Wl2 + bl2.
  The reference gathers hidden rows by `src` and `dst` and projects each edge's two rows; the kernel's host program
  projects every node once and gathers projected rows. A row gather reads whole rows at a row fixed by the index array
  alone (out-of-range indices clamped the same way on both sides), so the two orders give the same 128 numbers. The
  kernel then works on blocks of 4000 edges: it lays the three pieces end to end inside the block, takes both products
  with the `[133, 64]` weights as block products into a zero accumulator, and replaces the two products with a
  one-column weight by "multiply along the row and sum the row". Read at one row these are the same sums as the
  reference's four products; the logistic the kernel applies is, by definition, `1 / (1 + exp (−x))`, which the reference
  spells in host operations; narrowing and widening float formats are the identity here.
  So every row of the kernel's result array is the reference's result at that row — no commutation of a sum with a
  product, no cancellation, no finiteness of any operand is used: the precondition is never opened.

  Modules: `EdgeSpec` (the edge's result as a function of its features), `RowGather` (a row gather at an index),
  `KernelRow` (the kernel body at a row of a block), `KernelBlocks` (from the 400 blocks to the whole array),
  `KernelPrefix` and `KernelHost` (the kernel's host operations: the shared graph layers, the node projection, the
  gathers), `RefRow` (the reference at an edge). The frames are the generated ones; the reference's frame is its
  generated run with the result dropped. The idealization rewrote nothing, so `preserves` is `True`.
-/
import proofs.«177754_j68066641707575_2_alg».proof.Defs
import proofs.«177754_j68066641707575_2_alg».proof.Proof.Gen.Kernel
import proofs.«177754_j68066641707575_2_alg».proof.Proof.Gen.Kernel.Skeleton
import proofs.«177754_j68066641707575_2_alg».proof.Proof.Gen.Kernel.Launch
import proofs.«177754_j68066641707575_2_alg».proof.Proof.Gen.Kernel.Points
import proofs.«177754_j68066641707575_2_alg».proof.Proof.Gen.Kernel.Frame
import proofs.«177754_j68066641707575_2_alg».proof.Proof.Gen.KernelIdeal
import proofs.«177754_j68066641707575_2_alg».proof.Proof.Gen.KernelIdeal.Skeleton
import proofs.«177754_j68066641707575_2_alg».proof.Proof.Gen.KernelIdeal.Launch
import proofs.«177754_j68066641707575_2_alg».proof.Proof.Gen.KernelIdeal.Points
import proofs.«177754_j68066641707575_2_alg».proof.Proof.Gen.KernelIdeal.Frame
import proofs.«177754_j68066641707575_2_alg».proof.Proof.Gen.ReferenceIdeal
import proofs.«177754_j68066641707575_2_alg».proof.Proof.Gen.ReferenceIdeal.Run
import proofs.«177754_j68066641707575_2_alg».proof.Proof.Gen.ReferenceIdeal.Read
import proofs.«177754_j68066641707575_2_alg».proof.Proof.Gen.Pre_finite_inputs
import proofs.«177754_j68066641707575_2_alg».proof.Proof.KernelHost
import Idealize.ShloMosaic.Adequacy
import Idealize.ShloMosaic.Init

noncomputable section

namespace Cert.Proof

open Idealize.ShloMosaic Idealize.SL.Sem

/-- The word-level kernel runs, faults nowhere, and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the idealized kernel's result array ends at the function of the edge
    index found in `KernelBlocks`, the reference's at its composed term of the arguments, and these are one function
    (`KernelHost.G_eq`). -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  refine Eq.trans ?_ (Cert.KernelIdeal.HostSide.G_eq m c).symm
  rw [Cert.ReferenceIdeal.Read.val_main_v97_eq, h0, h1, h2, h3, h4, h5, h6, h7, h8, h9, h10, h11, h12, h13, h14, h15, h16, h17, h18, h19]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
